-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1300000 : Shape := ⟨1, ![1300000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S1300000 32) (main_arg2 : IVec S1300000 32) (main_arg3 : FVec F S64x64 .f32) (main_arg4 : FVec F S64 .f32) (main_arg5 : FVec F S64x16 .f32) (main_arg6 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_v13 main_v16
-- ==== Kernel.lean ====
abbrev S100000x64 : Shape := ⟨2, ![100000, 64]⟩
abbrev S1300000 : Shape := ⟨1, ![1300000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1300000x1 : Shape := ⟨2, ![1300000, 1]⟩
abbrev S100000x1 : Shape := ⟨2, ![100000, 1]⟩
abbrev S1300000x64 : Shape := ⟨2, ![1300000, 64]⟩
abbrev S1x64 : Shape := ⟨2, ![1, 64]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S1300000x16 : Shape := ⟨2, ![1300000, 16]⟩
abbrev S1x16 : Shape := ⟨2, ![1, 16]⟩

abbrev nBuf : Space → Nat
  | .hbm => 65
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1300000, .i32⟩
  | .hbm, ⟨2, _⟩ => ⟨S1300000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1300000, .f32⟩
  | .hbm, ⟨9, _⟩ => ⟨S_, .f32⟩
  | .hbm, ⟨10, _⟩ => ⟨S100000, .f32⟩
  | .hbm, ⟨11, _⟩ => ⟨S1300000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S100000x64, .bf16⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000x64, .bf16⟩
  | .hbm, ⟨38, _⟩ => ⟨S1300000x64, .f32⟩
  | .hbm, ⟨39, _⟩ => ⟨S_, .f32⟩
  | .hbm, ⟨40, _⟩ => ⟨S100000x64, .f32⟩
  | .hbm, ⟨41, _⟩ => ⟨S1300000x1, .i32⟩
  | .hbm, ⟨42, _⟩ => ⟨S100000x64, .f32⟩
  | .hbm, ⟨43, _⟩ => ⟨S100000x1, .f32⟩
  | .hbm, ⟨44, _⟩ => ⟨S100000x1, .f32⟩
  | .hbm, ⟨45, _⟩ => ⟨S1x64, .f32⟩
  | .hbm, ⟨46, _⟩ => ⟨S100000x16, .f32⟩
  | .hbm, ⟨47, _⟩ => ⟨S100000x16, .bf16⟩
  | .hbm, ⟨48, _⟩ => ⟨S_, .i32⟩
  | .hbm, ⟨49, _⟩ => ⟨S1300000, .i32⟩
  | .hbm, ⟨50, _⟩ => ⟨S1300000, .i1⟩
  | .hbm, ⟨51, _⟩ => ⟨S_, .i32⟩
  | .hbm, ⟨52, _⟩ => ⟨S1300000, .i32⟩
  | .hbm, ⟨53, _⟩ => ⟨S1300000, .i32⟩
  | .hbm, ⟨54, _⟩ => ⟨S1300000, .i32⟩
  | .hbm, ⟨55, _⟩ => ⟨S1300000x1, .i32⟩
  | .hbm, ⟨56, _⟩ => ⟨S1300000x16, .bf16⟩
  | .hbm, ⟨57, _⟩ => ⟨S1300000x16, .f32⟩
  | .hbm, ⟨58, _⟩ => ⟨S_, .f32⟩
  | .hbm, ⟨59, _⟩ => ⟨S100000x16, .f32⟩
  | .hbm, ⟨60, _⟩ => ⟨S1300000x1, .i32⟩
  | .hbm, ⟨61, _⟩ => ⟨S100000x16, .f32⟩
  | .hbm, ⟨62, _⟩ => ⟨S100000x1, .f32⟩
  | .hbm, ⟨63, _⟩ => ⟨S1x16, .f32⟩
  | .hbm, ⟨64, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S1x16, .f32⟩
  | .local _ .vmem, ⟨16, _⟩ => ⟨S5000x16, .f32⟩
  | .local _ .vmem, ⟨17, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1300000x1_S1300000_n_0_0_1_wf : ScatterDims.WF S100000 S1300000x1 S1300000 [] [0] [0] 1
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1300000x1_S1300000x16_1_0_n_n_0_1_116_wf : GatherDims.WF S100000x16 S1300000x1 S1300000x16 [1] [0] [] [0] [] 1 ![1, 16]
  scatter_S100000x16_S1300000x1_S1300000x16_1_0_0_1_wf : ScatterDims.WF S100000x16 S1300000x1 S1300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1300000x1_S1300000x16_1_0_n_n_0_1_116 : GatherDims S100000x16 S1300000x1 S1300000x16 where
  offsetDims := [1]
  collapsedSliceDims := [0]
  operandBatchingDims := []
  startIndicesBatchingDims := []
  startIndexMap := [0]
  indexVectorDim := 1
  sliceSizes := ![1, 16]
  wf := gather_S100000x16_S1300000x1_S1300000x16_1_0_n_n_0_1_116_wf
def scatter_S100000x16_S1300000x1_S1300000x16_1_0_0_1 : ScatterDims S100000x16 S1300000x1 S1300000x16 where
  updateWindowDims := [1]
  insertedWindowDims := [0]
  scatterDimsToOperandDims := [0]
  indexVectorDim := 1
  wf := scatter_S100000x16_S1300000x1_S1300000x16_1_0_0_1_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S1300000 : Shape := ⟨1, ![1300000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1300000x1 : Shape := ⟨2, ![1300000, 1]⟩
abbrev S100000x1 : Shape := ⟨2, ![100000, 1]⟩
abbrev S1300000x64 : Shape := ⟨2, ![1300000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1300000, .i32⟩
  | .hbm, ⟨2, _⟩ => ⟨S1300000, .i32⟩
  | .hbm, ⟨3, _⟩ => ⟨S64x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S_, .f32⟩
  | .hbm, ⟨8, _⟩ => ⟨S1300000, .f32⟩
  | .hbm, ⟨9, _⟩ => ⟨S_, .f32⟩
  | .hbm, ⟨10, _⟩ => ⟨S100000, .f32⟩
  | .hbm, ⟨11, _⟩ => ⟨S1300000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000x64, .f32⟩
  | .hbm, ⟨37, _⟩ => ⟨S_, .f32⟩
  | .hbm, ⟨38, _⟩ => ⟨S100000x64, .f32⟩
  | .hbm, ⟨39, _⟩ => ⟨S1300000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x1, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1300000, .i32⟩
  | .hbm, ⟨56, _⟩ => ⟨S1300000, .i1⟩
  | .hbm, ⟨57, _⟩ => ⟨S_, .i32⟩
  | .hbm, ⟨58, _⟩ => ⟨S1300000, .i32⟩
  | .hbm, ⟨59, _⟩ => ⟨S1300000, .i32⟩
  | .hbm, ⟨60, _⟩ => ⟨S1300000, .i32⟩
  | .hbm, ⟨61, _⟩ => ⟨S1300000x1, .i32⟩
  | .hbm, ⟨62, _⟩ => ⟨S1300000x64, .f32⟩
  | .hbm, ⟨63, _⟩ => ⟨S_, .f32⟩
  | .hbm, ⟨64, _⟩ => ⟨S100000x64, .f32⟩
  | .hbm, ⟨65, _⟩ => ⟨S1300000x1, .i32⟩
  | .hbm, ⟨66, _⟩ => ⟨S100000x64, .f32⟩
  | .hbm, ⟨67, _⟩ => ⟨S100000x1, .f32⟩
  | .hbm, ⟨68, _⟩ => ⟨S100000x64, .f32⟩
  | .hbm, ⟨69, _⟩ => ⟨S100000x64, .f32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1300000x1_S1300000_n_0_0_1_wf : ScatterDims.WF S100000 S1300000x1 S1300000 [] [0] [0] 1
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
/-
  The idealized kernel program's run with its result array named.

  The program is two pipelined regions among stretches of host operations. Its run ends with every buffer that outlives
  the regions at the contents the last segment boundary gives it: the launch memory pushed through the first stretch of
  host operations, the first region's write-backs, the second stretch, and the second region's write-backs. Read at the
  result buffer this names the program's result; read at an argument it is the launch contents.
-/
import proofs.«162987_j43173011259900_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; the result buffer then holds the last
    boundary's contents of it, and every argument its launch contents. -/
theorem run_main : θ_run defs (onTc (τ := τ) (main (F := F))) ⟨m, fun _ => 0, ρ⟩ (fun r => ∀ c : Dev nD,
      r.2.mem ((c.tc : Thread nD τ).loc main_v46) = W4 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v46 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Hand

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibReluLayer.lean ====
/-
  ONE DENSE LAYER WITH A RECTIFIER, AS A FUNCTION OF ITS INDEX, generic in the three extents.

  For a row operand x of shape [A, K], a matrix w of shape [K, B] and a bias row b of shape [1, B], the layer
      layer x w b (r, c) = max ((sum over k of x (r, k) · w (k, c)) + b (0, c)) 0
  is what, at the ideal values (every float operation exact, rounding between formats the identity),

  * a kernel computes by a matmul of the operands (rounded to bf16) into the zero accumulator, an addition of the
    bias row broadcast to every row, and a maximum with the zero splat              (`kernel_eq`);
  * the host computes by a dot_general, an addition of the bias row broadcast in dimensions [0, 1] and a maximum
    with the rank-0 zero broadcast to the result's shape                            (`host_eq`).

  The layer at an index reads only one row of x, one column of w and one entry of b (`layer_congr`), so a block of
  rows of the layer's result is the layer of the same block of rows of x.

  Nothing here depends on a program.
-/
import Idealize.ShloMosaic.Lib.ValueIdx
import Idealize.ShloMosaic.Lib.Pipeline.Value
import Idealize.ShloMosaic.PureOps.Ideal.Laws
import proofs.«162987_j43173011259900_2_alg».proof.Proof.LibPlainDot

noncomputable section

open scoped BigOperators

namespace Cert.Lib.ReluLayer

open Idealize.ShloMosaic Idealize.ShloMosaic.ValueIdx Cert.Lib.PlainDot

variable {A A' K B : Nat}

/-- The layer at the output index (r, c): the rectified sum of the products along row r of `x` and column c of `w`,
    plus the bias at column c. -/
def layer (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => max ((∑ k : Fin K, x (ix2 (j 0) k) * w (ix2 k (j 1))) + b (ix2 0 (j 1))) 0

/-- The layer at an index depends on one row of the row operand, one column of the matrix and one entry of the bias:
    two layers (over row operands of different heights) agree at two indices where those agree. -/
theorem layer_congr (x : (⟨2, ![A, K]⟩ : Shape).Idx → EReal) (x' : (⟨2, ![A', K]⟩ : Shape).Idx → EReal)
    (w w' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (hx : ∀ k, x (ix2 (j 0) k) = x' (ix2 (i 0) k)) (hw : ∀ k, w (ix2 k (j 1)) = w' (ix2 k (i 1)))
    (hb : b (ix2 0 (j 1)) = b' (ix2 0 (i 1))) : layer x w b j = layer x' w' b' i := by
  unfold layer
  rw [hb]
  refine congrArg (fun s => max (s + b' (ix2 0 (i 1))) 0) (Finset.sum_congr rfl fun k _ => ?_)
  rw [hx k, hw k]

/-- The kernel's spelling: matmul of the operands rounded to bf16 into the zero accumulator, plus the bias row
    broadcast to every row, maximum with the zero splat. -/
theorem kernel_eq (hB : B ≠ 1) (x : FVec Ideal ⟨2, ![A, K]⟩ .f32) (w : FVec Ideal ⟨2, ![K, B]⟩ .f32)
    (b : FVec Ideal ⟨2, ![1, B]⟩ .f32) (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 x h1) (truncf .bf16 w h2)
          (constant ⟨2, ![A, B]⟩ .f32 0x00000000#32)) (broadcastTo ⟨2, ![A, B]⟩ b hbc))
        (broadcast ⟨2, ![A, B]⟩ (Scalar.ofBits (F := Ideal) .f32 0x00000000#32))
      = layer x w b := by
  funext j
  rw [maximumf_apply, addf_apply, matmul_zero_plain_apply, broadcast_apply]
  rw [broadcastTo_apply b hbc j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  show max _ (Ideal.ofBits .f32 0x00000000#32) = _
  rw [Ideal.ofBits_zero_f32]
  rfl

/-- The host's spelling: dot_general of the operands, plus the bias row broadcast in dimensions [0, 1], maximum with
    the rank-0 zero broadcast to the result's shape. -/
theorem host_eq (hB : B ≠ 1) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none x w) (broadcastInDim ⟨2, ![A, B]⟩ ![0, 1] hb b))
        (broadcastInDim ⟨2, ![A, B]⟩ ![] h0 (constant (F := Ideal) ⟨0, ![]⟩ .f32 0x00000000#32))
      = layer x w b := by
  funext j
  rw [maximumf_apply, addf_apply, dotGeneral_plain_apply]
  rw [broadcastInDim_apply ![0, 1] hb b j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  rw [broadcastInDim_apply ![] h0 _ j ix0 (fun a => a.elim0), constant_apply, Ideal.ofBits_zero_f32]
  rfl

end Cert.Lib.ReluLayer

end
-- ==== Proof.LibScaledLayer.lean ====
/-
  ROW SCALING BY A COLUMN, AND THE SCALED DENSE LAYER, generic in the extents.

  For an array x of shape [A, B] and a column v of shape [A, 1],
      rowScale x v (r, c) = x (r, c) · v (r, 0):
  every row of x multiplied by that row's entry of the column.  A kernel spells it as a product with the column
  broadcast along the lanes (`rowScale_kernel`); the host starts from a vector u of length A, spreads it in
  dimension 0 to an [A, 1] column and that in dimensions [0, 1] to [A, B] (`rowScale_host`): the column is then the
  vector recast as [A, 1].  A bias vector of length B becomes the row [1, B] either by a recast or by a spread in
  dimension 1: one array (`row_spread_eq_cast`).

  The scaled layer  max ((Σ_k (a (r, k) · v (r, 0)) · w (k, c)) + b (0, c)) 0  is `layer (rowScale a v) w b`, in the
  kernel's spelling (`scaledLayer_kernel`) and in the host's (`scaledLayer_host`).  Both `rowScale` and the layer read,
  at an output row r, only row r of their row operands (`rowScale_rows`, `scaledLayer_rows`): a block of consecutive
  rows of the result is the result of that block of rows.

  No law of arithmetic beyond reading both spellings at an index is used, so nothing here asks the entries to be
  finite.  Nothing here depends on a program (imports LibKeepdims, LibPlainDot, LibReluLayer).
-/
import Idealize.ShloMosaic.Lib.ValueIdx
import Idealize.ShloMosaic.Lib.Pipeline.Value
import Idealize.ShloMosaic.Lib.ValueLayout
import Idealize.ShloMosaic.PureOps.Ideal.Laws
import proofs.«162987_j43173011259900_2_alg».proof.Proof.LibKeepdims
import proofs.«162987_j43173011259900_2_alg».proof.Proof.LibPlainDot
import proofs.«162987_j43173011259900_2_alg».proof.Proof.LibReluLayer

noncomputable section

open scoped BigOperators

namespace Cert.Lib.ScaledLayer

open Idealize.ShloMosaic Idealize.ShloMosaic.ValueIdx Cert.Lib.PlainDot Cert.Lib.ReluLayer Cert.LibKeepdims

variable {A A' K B : Nat}

/-- Every row of `x` multiplied by that row's entry of the column `v`. -/
def rowScale (x : (⟨2, ![A, B]⟩ : Shape).Idx → EReal) (v : (⟨2, ![A, 1]⟩ : Shape).Idx → EReal) :
    (⟨2, ![A, B]⟩ : Shape).Idx → EReal :=
  fun j => x j * v (ix2 (j 0) (0 : Fin 1))

theorem rowScale_apply (x : (⟨2, ![A, B]⟩ : Shape).Idx → EReal) (v : (⟨2, ![A, 1]⟩ : Shape).Idx → EReal)
    (p : Fin A) (q : Fin B) : rowScale x v (ix2 p q) = x (ix2 p q) * v (ix2 p (0 : Fin 1)) := rfl

/-- Row r of the scaled array reads row r of the array and entry r of the column: two scaled arrays (of different
    heights) agree at two indices where those agree. -/
theorem rowScale_rows (x : (⟨2, ![A, B]⟩ : Shape).Idx → EReal) (v : (⟨2, ![A, 1]⟩ : Shape).Idx → EReal)
    (x' : (⟨2, ![A', B]⟩ : Shape).Idx → EReal) (v' : (⟨2, ![A', 1]⟩ : Shape).Idx → EReal)
    (p : Fin A) (p' : Fin A') (q : Fin B)
    (hx : x (ix2 p q) = x' (ix2 p' q)) (hv : v (ix2 p (0 : Fin 1)) = v' (ix2 p' (0 : Fin 1))) :
    rowScale x v (ix2 p q) = rowScale x' v' (ix2 p' q) := by
  rw [rowScale_apply, rowScale_apply, hx, hv]

/-- The kernel's spelling: the product with the column broadcast along the lanes. -/
theorem rowScale_kernel (x : FVec Ideal ⟨2, ![A, B]⟩ .f32) (v : FVec Ideal ⟨2, ![A, 1]⟩ .f32)
    (hb : (⟨2, ![A, 1]⟩ : Shape).Broadcasts ⟨2, ![A, B]⟩) :
    mulf x (broadcastTo ⟨2, ![A, B]⟩ v hb) = rowScale x v := by
  funext j
  obtain ⟨p, q, rfl⟩ : ∃ (p : Fin A) (q : Fin B), j = ix2 p q := ⟨j 0, j 1, eq_ix2 j⟩
  rw [mulf_apply, broadcastTo_a1_ab_apply, rowScale_apply]

/-- A vector of length A spread in dimension 0 to an [A, 1] column is the vector recast as [A, 1]. -/
theorem col_spread_eq_cast {α : Type} (u : (⟨1, ![A]⟩ : Shape).Idx → α)
    (h1 : (⟨1, ![A]⟩ : Shape).BroadcastsInDim ⟨2, ![A, 1]⟩ (![0] : Fin 1 → Fin 2))
    (hs : (⟨1, ![A]⟩ : Shape).ShapeCasts ⟨2, ![A, 1]⟩) :
    broadcastInDim ⟨2, ![A, 1]⟩ ![0] h1 u = shapeCast ⟨2, ![A, 1]⟩ u hs := by
  funext j
  obtain ⟨p, q, rfl⟩ : ∃ (p : Fin A) (q : Fin 1), j = ix2 p q := ⟨j 0, j 1, eq_ix2 j⟩
  rw [shapeCast_a_a1_apply]
  refine broadcastInDim_apply ![0] h1 u (ix2 p q) (ix1 p) fun a => ?_
  match a with
  | ⟨0, _⟩ =>
    show p.val = if A = 1 then 0 else p.val
    split
    · have := p.isLt; omega
    · rfl

/-- The host's spelling: the product with the vector spread to a column and the column spread along the lanes. -/
theorem rowScale_host (x : FVec Ideal ⟨2, ![A, B]⟩ .f32) (u : FVec Ideal ⟨1, ![A]⟩ .f32)
    (h1 : (⟨1, ![A]⟩ : Shape).BroadcastsInDim ⟨2, ![A, 1]⟩ (![0] : Fin 1 → Fin 2))
    (h2 : (⟨2, ![A, 1]⟩ : Shape).BroadcastsInDim ⟨2, ![A, B]⟩ (![0, 1] : Fin 2 → Fin 2))
    (hs : (⟨1, ![A]⟩ : Shape).ShapeCasts ⟨2, ![A, 1]⟩) :
    mulf x (broadcastInDim ⟨2, ![A, B]⟩ ![0, 1] h2 (broadcastInDim ⟨2, ![A, 1]⟩ ![0] h1 u))
      = rowScale x (shapeCast ⟨2, ![A, 1]⟩ u hs) := by
  rw [col_spread_eq_cast u h1 hs]
  funext j
  obtain ⟨p, q, rfl⟩ : ∃ (p : Fin A) (q : Fin B), j = ix2 p q := ⟨j 0, j 1, eq_ix2 j⟩
  rw [mulf_apply, rowScale_apply]
  refine congrArg (fun s => x (ix2 p q) * s) ?_
  refine broadcastInDim_apply ![0, 1] h2 _ (ix2 p q) (ix2 p (0 : Fin 1)) fun a => ?_
  match a with
  | ⟨0, _⟩ =>
    show p.val = if A = 1 then 0 else p.val
    split
    · have := p.isLt; omega
    · rfl
  | ⟨1, _⟩ => show (0 : Nat) = if (1 : Nat) = 1 then 0 else _; rw [if_pos rfl]

/-- A vector of length B spread in dimension 1 to the row [1, B] is the vector recast as [1, B]. -/
theorem row_spread_eq_cast {α : Type} (b : (⟨1, ![B]⟩ : Shape).Idx → α)
    (h : (⟨1, ![B]⟩ : Shape).BroadcastsInDim ⟨2, ![1, B]⟩ (![1] : Fin 1 → Fin 2))
    (hs : (⟨1, ![B]⟩ : Shape).ShapeCasts ⟨2, ![1, B]⟩) :
    broadcastInDim ⟨2, ![1, B]⟩ ![1] h b = shapeCast ⟨2, ![1, B]⟩ b hs := by
  funext j
  obtain ⟨p, q, rfl⟩ : ∃ (p : Fin 1) (q : Fin B), j = ix2 p q := ⟨j 0, j 1, eq_ix2 j⟩
  rw [shapeCast_apply b hs (ix2 p q) (ix1 q) (by
    have hp : p.val = 0 := by omega
    rw [Shape.rowMajor_val_two, Shape.rowMajor_val_one]
    show q.val = p.val * B + q.val
    rw [hp]; omega)]
  refine broadcastInDim_apply ![1] h b (ix2 p q) (ix1 q) fun a => ?_
  match a with
  | ⟨0, _⟩ =>
    show q.val = if B = 1 then 0 else q.val
    split
    · have := q.isLt; omega
    · rfl

/-- The kernel's spelling of the scaled layer: the rows scaled by the column, both operands rounded to bf16, a matmul
    into the zero accumulator, the bias row added to every row, the maximum with the zero splat. -/
theorem scaledLayer_kernel (hB : B ≠ 1) (a : FVec Ideal ⟨2, ![A, K]⟩ .f32) (v : FVec Ideal ⟨2, ![A, 1]⟩ .f32)
    (w : FVec Ideal ⟨2, ![K, B]⟩ .f32) (b : FVec Ideal ⟨2, ![1, B]⟩ .f32)
    (hv : (⟨2, ![A, 1]⟩ : Shape).Broadcasts ⟨2, ![A, K]⟩)
    (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 (mulf a (broadcastTo ⟨2, ![A, K]⟩ v hv)) h1)
          (truncf .bf16 w h2) (constant ⟨2, ![A, B]⟩ .f32 0x00000000#32)) (broadcastTo ⟨2, ![A, B]⟩ b hbc))
        (broadcast ⟨2, ![A, B]⟩ (Scalar.ofBits (F := Ideal) .f32 0x00000000#32))
      = layer (rowScale a v) w b := by
  rw [rowScale_kernel a v hv]
  exact kernel_eq hB (rowScale a v) w b h1 h2 hbc

/-- The host's spelling of the scaled layer: the rows scaled by the vector spread to [A, K], a dot_general, the bias
    vector spread to [1, B] and then to every row, the maximum with the rank-0 zero spread to the result's shape. -/
theorem scaledLayer_host (hB : B ≠ 1) (a : FVec Ideal ⟨2, ![A, K]⟩ .f32) (u : FVec Ideal ⟨1, ![A]⟩ .f32)
    (w : FVec Ideal ⟨2, ![K, B]⟩ .f32) (b : FVec Ideal ⟨1, ![B]⟩ .f32)
    (h1 : (⟨1, ![A]⟩ : Shape).BroadcastsInDim ⟨2, ![A, 1]⟩ (![0] : Fin 1 → Fin 2))
    (h2 : (⟨2, ![A, 1]⟩ : Shape).BroadcastsInDim ⟨2, ![A, K]⟩ (![0, 1] : Fin 2 → Fin 2))
    (hs : (⟨1, ![A]⟩ : Shape).ShapeCasts ⟨2, ![A, 1]⟩)
    (hr : (⟨1, ![B]⟩ : Shape).BroadcastsInDim ⟨2, ![1, B]⟩ (![1] : Fin 1 → Fin 2))
    (hrs : (⟨1, ![B]⟩ : Shape).ShapeCasts ⟨2, ![1, B]⟩)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none
            (mulf a (broadcastInDim ⟨2, ![A, K]⟩ ![0, 1] h2 (broadcastInDim ⟨2, ![A, 1]⟩ ![0] h1 u))) w)
          (broadcastInDim ⟨2, ![A, B]⟩ ![0, 1] hb (broadcastInDim ⟨2, ![1, B]⟩ ![1] hr b)))
        (broadcastInDim ⟨2, ![A, B]⟩ ![] h0 (constant (F := Ideal) ⟨0, ![]⟩ .f32 0x00000000#32))
      = layer (rowScale a (shapeCast ⟨2, ![A, 1]⟩ u hs)) w (shapeCast ⟨2, ![1, B]⟩ b hrs) := by
  rw [rowScale_host a u h1 h2 hs, row_spread_eq_cast b hr hrs]
  exact host_eq hB _ w _ hb h0

/-- Row r of the scaled layer reads row r of the row operand and entry r of the column: the layer over a block of
    rows (an array of another height) agrees with the whole layer where the block's rows are the array's. -/
theorem scaledLayer_rows (a : (⟨2, ![A, K]⟩ : Shape).Idx → EReal) (v : (⟨2, ![A, 1]⟩ : Shape).Idx → EReal)
    (a' : (⟨2, ![A', K]⟩ : Shape).Idx → EReal) (v' : (⟨2, ![A', 1]⟩ : Shape).Idx → EReal)
    (w : (⟨2, ![K, B]⟩ : Shape).Idx → EReal) (b : (⟨2, ![1, B]⟩ : Shape).Idx → EReal)
    (p : Fin A) (p' : Fin A') (q : Fin B)
    (ha : ∀ k, a (ix2 p k) = a' (ix2 p' k)) (hv : v (ix2 p (0 : Fin 1)) = v' (ix2 p' (0 : Fin 1))) :
    layer (rowScale a v) w b (ix2 p q) = layer (rowScale a' v') w b (ix2 p' q) :=
  layer_congr (rowScale a v) (rowScale a' v') w w b b (ix2 p q) (ix2 p' q)
    (fun k => rowScale_rows a v a' v' p p' k (ha k) hv) (fun _ => rfl) rfl

end Cert.Lib.ScaledLayer

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibGcnSpec.lean ====
/-
  The two graph-convolution layers as functions of an index, and the law that lets the second layer's weight matrix act
  before the second aggregation.

  For a block of A rows: `hid` is the rectified first layer, rescaled row by row for the next aggregation,
      hid a vin vout w b (r, j) = max ((Σ_k (a (r, k) · vin r) · w (k, j)) + b j) 0 · vout r;
  `proj h w (r, c) = Σ_j h (r, j) · w (j, c)` is a plain product; `affine y v b (r, c) = y (r, c) · v r + b c`.
  Each reads, at row r, only row r of its row operands, so a block of rows of the result is the result of that block.

  The law: for real entries, with L the set of edges landing on a node and d the node's factor,
      (Σ_{e ∈ L} Σ_k X (e, k) · W k) · d  =  Σ_k ((Σ_{e ∈ L} X (e, k)) · d) · W k.
  On the extended reals this needs the entries real (distributivity fails at ±∞); in ℝ it is distributivity and an
  exchange of the two sums.

  Nothing here depends on a program (imports LibScaledLayer and what it imports, LibExtReals).
-/
import Idealize.ShloMosaic.Lib.ValueIdx
import Idealize.ShloMosaic.Lib.Pipeline.Value
import Idealize.ShloMosaic.PureOps.Ideal.Laws
import proofs.«162987_j43173011259900_2_alg».proof.Proof.LibScaledLayer
import proofs.«162987_j43173011259900_2_alg».proof.Proof.LibExtReals

noncomputable section

open scoped BigOperators

namespace Cert.Gcn

open Idealize.ShloMosaic Idealize.ShloMosaic.ValueIdx Cert.Lib.PlainDot Cert.Lib.ReluLayer Cert.Lib.ScaledLayer Cert.Net

variable {A A' K H C : Nat}

/-- The rectified dense layer of the rows scaled by `vin`, each row then scaled by `vout`. -/
def hid (a : (⟨2, ![A, K]⟩ : Shape).Idx → EReal) (vin vout : (⟨2, ![A, 1]⟩ : Shape).Idx → EReal)
    (w : (⟨2, ![K, H]⟩ : Shape).Idx → EReal) (b : (⟨2, ![1, H]⟩ : Shape).Idx → EReal) : (⟨2, ![A, H]⟩ : Shape).Idx → EReal :=
  rowScale (layer (rowScale a vin) w b) vout

/-- A plain product read at an index. -/
def proj (h : (⟨2, ![A, H]⟩ : Shape).Idx → EReal) (w : (⟨2, ![H, C]⟩ : Shape).Idx → EReal) : (⟨2, ![A, C]⟩ : Shape).Idx → EReal :=
  fun j => ∑ k : Fin H, h (ix2 (j 0) k) * w (ix2 k (j 1))

/-- Rows scaled by a column, plus a bias row. -/
def affine (y : (⟨2, ![A, C]⟩ : Shape).Idx → EReal) (v : (⟨2, ![A, 1]⟩ : Shape).Idx → EReal)
    (b : (⟨2, ![1, C]⟩ : Shape).Idx → EReal) : (⟨2, ![A, C]⟩ : Shape).Idx → EReal :=
  fun j => y j * v (ix2 (j 0) (0 : Fin 1)) + b (ix2 (0 : Fin 1) (j 1))

theorem proj_apply (h : (⟨2, ![A, H]⟩ : Shape).Idx → EReal) (w : (⟨2, ![H, C]⟩ : Shape).Idx → EReal) (p : Fin A) (q : Fin C) :
    proj h w (ix2 p q) = ∑ k : Fin H, h (ix2 p k) * w (ix2 k q) := rfl

theorem affine_apply (y : (⟨2, ![A, C]⟩ : Shape).Idx → EReal) (v : (⟨2, ![A, 1]⟩ : Shape).Idx → EReal)
    (b : (⟨2, ![1, C]⟩ : Shape).Idx → EReal) (p : Fin A) (q : Fin C) :
    affine y v b (ix2 p q) = y (ix2 p q) * v (ix2 p (0 : Fin 1)) + b (ix2 (0 : Fin 1) q) := rfl

/-- Row r of `hid` reads row r of the row operand and entry r of each column. -/
theorem hid_rows (a : (⟨2, ![A, K]⟩ : Shape).Idx → EReal) (vin vout : (⟨2, ![A, 1]⟩ : Shape).Idx → EReal)
    (a' : (⟨2, ![A', K]⟩ : Shape).Idx → EReal) (vin' vout' : (⟨2, ![A', 1]⟩ : Shape).Idx → EReal)
    (w : (⟨2, ![K, H]⟩ : Shape).Idx → EReal) (b : (⟨2, ![1, H]⟩ : Shape).Idx → EReal)
    (p : Fin A) (p' : Fin A') (q : Fin H)
    (ha : ∀ k, a (ix2 p k) = a' (ix2 p' k)) (hin : vin (ix2 p (0 : Fin 1)) = vin' (ix2 p' (0 : Fin 1)))
    (hout : vout (ix2 p (0 : Fin 1)) = vout' (ix2 p' (0 : Fin 1))) :
    hid a vin vout w b (ix2 p q) = hid a' vin' vout' w b (ix2 p' q) :=
  rowScale_rows _ vout _ vout' p p' q (scaledLayer_rows a vin a' vin' w b p p' q ha hin) hout

/-- Row r of a product reads row r of its left operand. -/
theorem proj_rows (h : (⟨2, ![A, H]⟩ : Shape).Idx → EReal) (h' : (⟨2, ![A', H]⟩ : Shape).Idx → EReal)
    (w : (⟨2, ![H, C]⟩ : Shape).Idx → EReal) (p : Fin A) (p' : Fin A') (q : Fin C)
    (hh : ∀ k, h (ix2 p k) = h' (ix2 p' k)) : proj h w (ix2 p q) = proj h' w (ix2 p' q) := by
  rw [proj_apply, proj_apply]
  exact Finset.sum_congr rfl fun k _ => by rw [hh k]

/-! ## The law -/

/-- For real entries: the weighted sum over the landing edges of the rows' products with W, scaled once, is the
    product with W of the scaled column sums. -/
theorem push_law {ι κ : Type} [Fintype ι] [Fintype κ] (L : ι → Prop) [DecidablePred L] (X : ι → κ → EReal) (W : κ → EReal)
    (d : EReal) (hX : ∀ e k, ∃ r : ℝ, X e k = (r : EReal)) (hW : ∀ k, ∃ r : ℝ, W k = (r : EReal))
    (hd : ∃ r : ℝ, d = (r : EReal)) :
    (0 + ∑ e, if L e then ∑ k, X e k * W k else 0) * d = ∑ k, ((0 + ∑ e, if L e then X e k else 0) * d) * W k := by
  choose X' hX' using hX
  choose W' hW' using hW
  obtain ⟨d', rfl⟩ := hd
  have hite : ∀ (p : Prop) [Decidable p] (a : ℝ), (if p then (a : EReal) else 0) = ((if p then a else 0 : ℝ) : EReal) := by
    intro p _ a; split <;> simp
  simp only [zero_add, hX', hW', hite, ← EReal.coe_mul, ← coe_sum]
  exact congrArg _ (real_law L X' W' d').symm

/-! ## Real entries stay real -/

theorem real_zero : ∃ r : ℝ, (0 : EReal) = (r : EReal) := ⟨0, EReal.coe_zero.symm⟩

theorem hid_real (a : (⟨2, ![A, K]⟩ : Shape).Idx → EReal) (vin vout : (⟨2, ![A, 1]⟩ : Shape).Idx → EReal)
    (w : (⟨2, ![K, H]⟩ : Shape).Idx → EReal) (b : (⟨2, ![1, H]⟩ : Shape).Idx → EReal)
    (ha : ∀ i, ∃ r : ℝ, a i = (r : EReal)) (hin : ∀ i, ∃ r : ℝ, vin i = (r : EReal))
    (hout : ∀ i, ∃ r : ℝ, vout i = (r : EReal)) (hw : ∀ i, ∃ r : ℝ, w i = (r : EReal))
    (hb : ∀ i, ∃ r : ℝ, b i = (r : EReal)) (j : (⟨2, ![A, H]⟩ : Shape).Idx) : ∃ r : ℝ, hid a vin vout w b j = (r : EReal) := by
  unfold hid rowScale layer
  exact real_mul (real_max (real_add (real_sum _ _ fun k => real_mul (real_mul (ha _) (hin _)) (hw _)) (hb _)) real_zero) (hout _)

end Cert.Gcn

end
-- ==== Proof.Pay.lean ====
/-
  What the two kernel bodies compute, as functions of the blocks they load.

  The first body scales the rows of its aggregate block by the in-degree column, applies the dense layer with a
  rectifier, scales by the out-degree column and multiplies by the second weight matrix: `proj (hid …) …`.
  The second body scales its aggregate block by the in-degree column and adds the bias row: `affine`.
  Rounding to bf16 on the way into a product is the identity on the extended reals.
-/
import proofs.«162987_j43173011259900_2_alg».proof.Proof.Gen.KernelIdeal.Skeleton
import proofs.«162987_j43173011259900_2_alg».proof.Proof.LibGcnSpec

noncomputable section

open scoped BigOperators

namespace Cert.KernelIdeal.Hand

open Cert.KernelIdeal Cert.KernelIdeal.Gen
open Idealize.ShloMosaic Idealize.ShloMosaic.ValueIdx
open Cert.Lib.PlainDot Cert.Lib.ReluLayer Cert.Lib.ScaledLayer Cert.LibKeepdims Cert.Gcn

theorem dot1_eq : dot_S5000x64_S64x64_S5000x64_1_0_0_1_n_n = DotDims.plain 5000 64 64 := eq_plain _ rfl rfl rfl rfl rfl rfl
theorem dot2_eq : dot_S5000x64_S64x16_S5000x16_1_0_0_1_n_n = DotDims.plain 5000 64 16 := eq_plain _ rfl rfl rfl rfl rfl rfl

/-- The first body's stored value: the projected hidden block. -/
theorem pay0_eq (x0 : FVec Ideal S5000x64 .f32) (x1 x2 : FVec Ideal S5000x1 .f32) (x3 : FVec Ideal S64x64 .f32)
    (x4 : FVec Ideal S1x64 .f32) (x5 : FVec Ideal S64x16 .f32) :
    k0_pay1 (F := Ideal) x0 x1 x3 x4 x2 x5 = proj (hid x0 x1 x2 x3 x4) x5 := by
  unfold k0_pay1
  simp only [shapeCast_self]
  rw [dot1_eq, dot2_eq, scaledLayer_kernel (by decide), rowScale_kernel]
  funext j
  rw [matmul_zero_plain_apply]
  rfl

/-- The second body's stored value: the scaled aggregate plus the bias row. -/
theorem pay1_eq (x0 : FVec Ideal S5000x16 .f32) (x1 : FVec Ideal S5000x1 .f32) (x2 : FVec Ideal S1x16 .f32) :
    k1_pay1 (F := Ideal) x0 x1 x2 = affine x0 x1 x2 := by
  unfold k1_pay1
  simp only [shapeCast_self]
  funext j
  obtain ⟨p, q, rfl⟩ : ∃ (p : Fin 5000) (q : Fin 16), j = ix2 p q := ⟨j 0, j 1, eq_ix2 j⟩
  rw [addf_apply, mulf_apply, broadcastTo_a1_ab_apply, affine_apply]
  rw [broadcastTo_apply x2 _ (ix2 p q) (ix2 (0 : Fin 1) q) (fun a => by
    match a with
    | ⟨0, _⟩ => show (0 : Nat) = if (1 : Nat) = 1 then 0 else _; rw [if_pos rfl]
    | ⟨1, _⟩ => show q.val = if (16 : Nat) = 1 then 0 else q.val; rw [if_neg (by decide)])]

end Cert.KernelIdeal.Hand

end
-- ==== Proof.Region0.lean ====
/-
  The first region's result array.

  Grid point t of the first region handles rows 5000 t … 5000 t + 4999: it reads those rows of the first aggregate and of
  the two degree columns, and the whole weight matrices and bias row, and writes the projected hidden features of those
  rows. The twenty blocks tile the array, and a row of `proj (hid …) …` reads only that row of the row operands, so the
  array ends holding `proj (hid …) …` of the whole arrays.
-/
import proofs.«162987_j43173011259900_2_alg».proof.Proof.Gen.KernelIdeal.Frame
import proofs.«162987_j43173011259900_2_alg».proof.Proof.Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the row-blocked windows are at block (t, 0). -/
theorem idx0a : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0 :=
  (by decide +kernel : ∀ t : Fin grid0.N, _)

/-- The weight matrices and the bias row are at block (0, 0) at every point. -/
theorem idx0b : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The projected hidden features on a block of rows against those of the whole arrays, at a row of the block. -/
theorem projhid_block (x0 : FVec Ideal S5000x64 .f32) (x1 x2 : FVec Ideal S5000x1 .f32) (x3 : FVec Ideal S64x64 .f32)
    (x4 : FVec Ideal S1x64 .f32) (x5 : FVec Ideal S64x16 .f32)
    (A0 : S100000x64.Idx → EReal) (A1 A2 : S100000x1.Idx → EReal) (A3 : S64x64.Idx → EReal) (A4 : S1x64.Idx → EReal)
    (A5 : S64x16.Idx → EReal) (y : S5000x16.Idx) (i : S100000x16.Idx) (tv : Nat)
    (hi0 : (i 0).val = tv * 5000 + (y 0).val) (hi1 : (i 1).val = (y 1).val)
    (h0 : ∀ (p : Fin 5000) (k : Fin 64) (n : Fin 100000), n.val = tv * 5000 + p.val → x0 (ix2 p k) = A0 (ix2 n k))
    (h1 : ∀ (p : Fin 5000) (n : Fin 100000), n.val = tv * 5000 + p.val → x1 (ix2 p (0 : Fin 1)) = A1 (ix2 n (0 : Fin 1)))
    (h2 : ∀ (p : Fin 5000) (n : Fin 100000), n.val = tv * 5000 + p.val → x2 (ix2 p (0 : Fin 1)) = A2 (ix2 n (0 : Fin 1)))
    (h3 : x3 = A3) (h4 : x4 = A4) (h5 : x5 = A5) :
    proj (hid x0 x1 x2 x3 x4) x5 y = proj (hid A0 A1 A2 A3 A4) A5 i := by
  subst h3 h4 h5
  obtain ⟨p, q, rfl⟩ : ∃ (p : Fin 5000) (q : Fin 16), y = ix2 p q := ⟨y 0, y 1, eq_ix2 y⟩
  obtain ⟨n, q', rfl⟩ : ∃ (n : Fin 100000) (q' : Fin 16), i = ix2 n q' := ⟨i 0, i 1, eq_ix2 i⟩
  obtain rfl : q' = q := Fin.ext hi1
  exact proj_rows _ _ _ p n q' fun k =>
    hid_rows x0 x1 x2 A0 A1 A2 x3 x4 p n k (fun k' => h0 p k' n hi0) (h1 p n hi0) (h2 p n hi0)

theorem iblk0_0_apply (c : Dev nD) (t : Fin cfg0.N) (p : Fin 5000) (k : Fin 64) (n : Fin 100000)
    (hn : n.val = t.val * 5000 + p.val) :
    (iblk0 V c 0 t : Vec Ideal S5000x64 .f32) (ix2 p k) = (V c main_v27 : S100000x64.Idx → EReal) (ix2 n k) := by
  unfold iblk0
  rw [View.read_apply]
  show V c main_v27 _ = V c main_v27 _
  refine congrArg _ (funext fun a => Fin.ext ?_)
  match a with
  | ⟨0, _⟩ => show win0_0.index t (0 : Fin 2) * 5000 + 1 * p.val = n.val; rw [(idx0a t).1, hn]; omega
  | ⟨1, _⟩ => show win0_0.index t (1 : Fin 2) * 64 + 1 * k.val = k.val; rw [(idx0a t).2.1]; omega

theorem iblk0_1_apply (c : Dev nD) (t : Fin cfg0.N) (p : Fin 5000) (n : Fin 100000)
    (hn : n.val = t.val * 5000 + p.val) :
    (iblk0 V c 1 t : Vec Ideal S5000x1 .f32) (ix2 p (0 : Fin 1)) = (V c main_v28 : S100000x1.Idx → EReal) (ix2 n (0 : Fin 1)) := by
  unfold iblk0
  rw [View.read_apply]
  show V c main_v28 _ = V c main_v28 _
  refine congrArg _ (funext fun a => Fin.ext ?_)
  match a with
  | ⟨0, _⟩ => show win0_1.index t (0 : Fin 2) * 5000 + 1 * p.val = n.val; rw [(idx0a t).2.2.1, hn]; omega
  | ⟨1, _⟩ => show win0_1.index t (1 : Fin 2) * 1 + 1 * 0 = 0; rw [(idx0a t).2.2.2.1]

theorem iblk0_2_apply (c : Dev nD) (t : Fin cfg0.N) (p : Fin 5000) (n : Fin 100000)
    (hn : n.val = t.val * 5000 + p.val) :
    (iblk0 V c 2 t : Vec Ideal S5000x1 .f32) (ix2 p (0 : Fin 1)) = (V c main_v29 : S100000x1.Idx → EReal) (ix2 n (0 : Fin 1)) := by
  unfold iblk0
  rw [View.read_apply]
  show V c main_v29 _ = V c main_v29 _
  refine congrArg _ (funext fun a => Fin.ext ?_)
  match a with
  | ⟨0, _⟩ => show win0_2.index t (0 : Fin 2) * 5000 + 1 * p.val = n.val; rw [(idx0a t).2.2.2.2.1, hn]; omega
  | ⟨1, _⟩ => show win0_2.index t (1 : Fin 2) * 1 + 1 * 0 = 0; rw [(idx0a t).2.2.2.2.2.1]

theorem iblk0_3_eq (c : Dev nD) (t : Fin cfg0.N) :
    (iblk0 V c 3 t : Vec Ideal S64x64 .f32) = (V c main_arg3 : S64x64.Idx → EReal) := by
  funext y
  unfold iblk0
  rw [View.read_apply]
  show V c main_arg3 _ = V c main_arg3 _
  refine congrArg _ (funext fun a => Fin.ext ?_)
  match a with
  | ⟨0, _⟩ => show win0_3.index t (0 : Fin 2) * 64 + 1 * (y 0).val = (y 0).val; rw [(idx0b t).1]; omega
  | ⟨1, _⟩ => show win0_3.index t (1 : Fin 2) * 64 + 1 * (y 1).val = (y 1).val; rw [(idx0b t).2.1]; omega

theorem iblk0_4_eq (c : Dev nD) (t : Fin cfg0.N) :
    (iblk0 V c 4 t : Vec Ideal S1x64 .f32) = (V c main_v30 : S1x64.Idx → EReal) := by
  funext y
  unfold iblk0
  rw [View.read_apply]
  show V c main_v30 _ = V c main_v30 _
  refine congrArg _ (funext fun a => Fin.ext ?_)
  match a with
  | ⟨0, _⟩ => show win0_4.index t (0 : Fin 2) * 1 + 1 * (y 0).val = (y 0).val; rw [(idx0b t).2.2.1]; omega
  | ⟨1, _⟩ => show win0_4.index t (1 : Fin 2) * 64 + 1 * (y 1).val = (y 1).val; rw [(idx0b t).2.2.2.1]; omega

theorem iblk0_5_eq (c : Dev nD) (t : Fin cfg0.N) :
    (iblk0 V c 5 t : Vec Ideal S64x16 .f32) = (V c main_arg5 : S64x16.Idx → EReal) := by
  funext y
  unfold iblk0
  rw [View.read_apply]
  show V c main_arg5 _ = V c main_arg5 _
  refine congrArg _ (funext fun a => Fin.ext ?_)
  match a with
  | ⟨0, _⟩ => show win0_5.index t (0 : Fin 2) * 64 + 1 * (y 0).val = (y 0).val; rw [(idx0b t).2.2.2.2.1]; omega
  | ⟨1, _⟩ => show win0_5.index t (1 : Fin 2) * 16 + 1 * (y 1).val = (y 1).val; rw [(idx0b t).2.2.2.2.2]; omega

/-- What point t writes back is block t of the projected hidden features of the arrays the region finds. -/
theorem flushed0_eq (c : Dev nD) (t : Fin cfg0.N) :
    (dat0 V c).flushed 6 t = ((cfg0.win 6).blk t).view.read (Elt Ideal)
      (proj (hid (V c main_v27) (V c main_v28) (V c main_v29) (V c main_arg3) (V c main_v30)) (V c main_arg5)) := by
  show (cfg0.win 6).cut (grid0.coords t) ((dat0 V c).after 6 t) = _
  rw [after0_6]
  unfold out0_6
  rw [View.canon_unit_zero hz0]
  simp only [View.ld_unit_zero (S := S5000x64) hz0, View.ld_unit_zero (S := S5000x1) hz0, View.ld_unit_zero (S := S64x64) hz0,
    View.ld_unit_zero (S := S1x64) hz0, View.ld_unit_zero (S := S64x16) hz0]
  rw [pay0_eq]
  funext y
  rw [View.read_apply]
  refine projhid_block _ _ _ _ _ _ _ _ _ _ _ _ y _ t.val ?_ ?_ (fun p k n hn => iblk0_0_apply V c t p k n hn)
    (fun p n hn => iblk0_1_apply V c t p n hn) (fun p n hn => iblk0_2_apply V c t p n hn)
    (iblk0_3_eq V c t) (iblk0_4_eq V c t) (iblk0_5_eq V c t)
  · show win0_6.index t (0 : Fin 2) * 5000 + 1 * (y 0).val = t.val * 5000 + (y 0).val
    rw [(idx0a t).2.2.2.2.2.2.1]; omega
  · show win0_6.index t (1 : Fin 2) * 16 + 1 * (y 1).val = (y 1).val
    rw [(idx0a t).2.2.2.2.2.2.2]; omega

theorem mem_blk0 (t : Fin cfg0.N) (i : S100000x16.Idx) :
    i ∈ ((cfg0.win 6).blk t).view.set ↔ ∀ a : Fin 2, win0_6.index t a * S5000x16.size a ≤ (i a).val
      ∧ (i a).val < win0_6.index t a * S5000x16.size a + S5000x16.size a := by
  show i ∈ ((View.whole main_v31).slice (win0_6.rect t)).set ↔ _
  rw [View.set_slice_whole, Rect.mem_set_unit]
  exact Iff.rfl

/-- Row r of the result is in the block of point r / 5000. -/
theorem cover0 (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [(idx0a t).2.2.2.2.2.2.1, ht]; omega
  | ⟨1, _⟩ =>
    show win0_6.index t (1 : Fin 2) * 16 ≤ (i 1).val ∧ (i 1).val < win0_6.index t (1 : Fin 2) * 16 + 16
    rw [(idx0a t).2.2.2.2.2.2.2]; omega

/-- The first region's result array: the projected hidden features. -/
theorem final0 (c : Dev nD) :
    (dat0 V c).arrAt 6 cfg0.N
      = proj (hid (V c main_v27) (V c main_v28) (V c main_v29) (V c main_arg3) (V c main_v30)) (V c main_arg5) :=
  (dat0 V c).arrAt_eq_of_cover 6 _ (fun t _ => flushed0_eq V c t) cover0

end Cert.KernelIdeal.Hand

end
-- ==== Proof.Region1.lean ====
/-
  The second region's result array.

  Grid point t of the second region handles rows 5000 t … 5000 t + 4999: it reads those rows of the aggregate and of the
  in-degree column, and the whole bias row, and writes `affine` of them to those rows of the result. The twenty blocks
  tile the array, and `affine` at a row reads only that row, so the array ends holding `affine` of the whole arrays.
-/
import proofs.«162987_j43173011259900_2_alg».proof.Proof.Gen.KernelIdeal.Frame
import proofs.«162987_j43173011259900_2_alg».proof.Proof.Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Gcn

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the row-blocked windows are at block (t, 0), the bias row at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- `affine` on a block of rows against `affine` on the whole arrays, at a row of the block. -/
theorem affine_block (x0 : FVec Ideal S5000x16 .f32) (x1 : FVec Ideal S5000x1 .f32) (x2 : FVec Ideal S1x16 .f32)
    (A0 : S100000x16.Idx → EReal) (A1 : S100000x1.Idx → EReal) (A2 : S1x16.Idx → EReal)
    (y : S5000x16.Idx) (i : S100000x16.Idx) (tv : Nat)
    (hi0 : (i 0).val = tv * 5000 + (y 0).val) (hi1 : (i 1).val = (y 1).val)
    (h0 : ∀ (p : Fin 5000) (q : Fin 16) (n : Fin 100000), n.val = tv * 5000 + p.val → x0 (ix2 p q) = A0 (ix2 n q))
    (h1 : ∀ (p : Fin 5000) (n : Fin 100000), n.val = tv * 5000 + p.val → x1 (ix2 p (0 : Fin 1)) = A1 (ix2 n (0 : Fin 1)))
    (h2 : ∀ q : Fin 16, x2 (ix2 (0 : Fin 1) q) = A2 (ix2 (0 : Fin 1) q)) :
    affine x0 x1 x2 y = affine A0 A1 A2 i := by
  obtain ⟨p, q, rfl⟩ : ∃ (p : Fin 5000) (q : Fin 16), y = ix2 p q := ⟨y 0, y 1, eq_ix2 y⟩
  obtain ⟨n, q', rfl⟩ : ∃ (n : Fin 100000) (q' : Fin 16), i = ix2 n q' := ⟨i 0, i 1, eq_ix2 i⟩
  obtain rfl : q' = q := Fin.ext hi1
  rw [affine_apply, affine_apply, h0 p q' n hi0, h1 p n hi0, h2 q']

theorem iblk1_0_apply (c : Dev nD) (t : Fin cfg1.N) (p : Fin 5000) (q : Fin 16) (n : Fin 100000)
    (hn : n.val = t.val * 5000 + p.val) :
    (iblk1 V c 0 t : Vec Ideal S5000x16 .f32) (ix2 p q) = (V c main_v43 : S100000x16.Idx → EReal) (ix2 n q) := by
  unfold iblk1
  rw [View.read_apply]
  show V c main_v43 _ = V c main_v43 _
  refine congrArg _ (funext fun a => Fin.ext ?_)
  match a with
  | ⟨0, _⟩ => show win1_0.index t (0 : Fin 2) * 5000 + 1 * p.val = n.val; rw [(idx1 t).1, hn]; omega
  | ⟨1, _⟩ => show win1_0.index t (1 : Fin 2) * 16 + 1 * q.val = q.val; rw [(idx1 t).2.1]; omega

theorem iblk1_1_apply (c : Dev nD) (t : Fin cfg1.N) (p : Fin 5000) (n : Fin 100000)
    (hn : n.val = t.val * 5000 + p.val) :
    (iblk1 V c 1 t : Vec Ideal S5000x1 .f32) (ix2 p (0 : Fin 1)) = (V c main_v44 : S100000x1.Idx → EReal) (ix2 n (0 : Fin 1)) := by
  unfold iblk1
  rw [View.read_apply]
  show V c main_v44 _ = V c main_v44 _
  refine congrArg _ (funext fun a => Fin.ext ?_)
  match a with
  | ⟨0, _⟩ => show win1_1.index t (0 : Fin 2) * 5000 + 1 * p.val = n.val; rw [(idx1 t).2.2.1, hn]; omega
  | ⟨1, _⟩ => show win1_1.index t (1 : Fin 2) * 1 + 1 * 0 = 0; rw [(idx1 t).2.2.2.1]

theorem iblk1_2_apply (c : Dev nD) (t : Fin cfg1.N) (q : Fin 16) :
    (iblk1 V c 2 t : Vec Ideal S1x16 .f32) (ix2 (0 : Fin 1) q) = (V c main_v45 : S1x16.Idx → EReal) (ix2 (0 : Fin 1) q) := by
  unfold iblk1
  rw [View.read_apply]
  show V c main_v45 _ = V c main_v45 _
  refine congrArg _ (funext fun a => Fin.ext ?_)
  match a with
  | ⟨0, _⟩ => show win1_2.index t (0 : Fin 2) * 1 + 1 * 0 = 0; rw [(idx1 t).2.2.2.2.1]
  | ⟨1, _⟩ => show win1_2.index t (1 : Fin 2) * 16 + 1 * q.val = q.val; rw [(idx1 t).2.2.2.2.2.1]; omega

/-- What point t writes back is block t of `affine` of the arrays the region finds. -/
theorem flushed1_eq (c : Dev nD) (t : Fin cfg1.N) :
    (dat1 V c).flushed 3 t = ((cfg1.win 3).blk t).view.read (Elt Ideal) (affine (V c main_v43) (V c main_v44) (V c main_v45)) := by
  show (cfg1.win 3).cut (grid1.coords t) ((dat1 V c).after 3 t) = _
  rw [after1_3]
  unfold out1_3
  rw [View.canon_unit_zero hz1]
  simp only [View.ld_unit_zero (S := S5000x16) hz1, View.ld_unit_zero (S := S5000x1) hz1, View.ld_unit_zero (S := S1x16) hz1]
  rw [pay1_eq]
  funext y
  rw [View.read_apply]
  refine affine_block _ _ _ _ _ _ y _ t.val ?_ ?_ (fun p q n hn => iblk1_0_apply V c t p q n hn)
    (fun p n hn => iblk1_1_apply V c t p n hn) (fun q => iblk1_2_apply V c t q)
  · show win1_3.index t (0 : Fin 2) * 5000 + 1 * (y 0).val = t.val * 5000 + (y 0).val
    rw [(idx1 t).2.2.2.2.2.2.1]; omega
  · show win1_3.index t (1 : Fin 2) * 16 + 1 * (y 1).val = (y 1).val
    rw [(idx1 t).2.2.2.2.2.2.2]; omega

theorem mem_blk1 (t : Fin cfg1.N) (i : S100000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v46).slice (win1_3.rect t)).set ↔ _
  rw [View.set_slice_whole, Rect.mem_set_unit]
  exact Iff.rfl

/-- Row r of the result is in the block of point r / 5000. -/
theorem cover1 (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [(idx1 t).2.2.2.2.2.2.1, ht]; omega
  | ⟨1, _⟩ =>
    show win1_3.index t (1 : Fin 2) * 16 ≤ (i 1).val ∧ (i 1).val < win1_3.index t (1 : Fin 2) * 16 + 16
    rw [(idx1 t).2.2.2.2.2.2.2]; omega

/-- The result array after the region: `affine` of the aggregate, the in-degree column and the bias row. -/
theorem final1 (c : Dev nD) :
    (dat1 V c).arrAt 3 cfg1.N = affine (V c main_v43) (V c main_v44) (V c main_v45) :=
  (dat1 V c).arrAt_eq_of_cover 3 _ (fun t _ => flushed1_eq V c t) cover1

end Cert.KernelIdeal.Hand

end
-- ==== Proof.HostK.lean ====
/-
  The arrays the two regions find, as functions of the argument arrays.

  Before the first region the program computes the inverse square roots of the out- and in-degrees, scales the features
  by the out-degree factor, gathers the scaled rows (rounded to bf16 and back, the identity on the extended reals) at the
  source of every edge and adds them into the row of the edge's target; it recasts the two factor vectors as columns and
  the first bias as a row. Between the regions it gathers and adds the first region's result in the same way and recasts
  the in-degree factor and the second bias. No operation writes an argument.
-/
import proofs.«162987_j43173011259900_2_alg».proof.Proof.Gen.KernelIdeal.Frame
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

/-- The inverse square root of the degree counted along one index list, at least 1. -/
def nrmK (idx : IVec S1300000 32) : FVec Ideal S100000 .f32 :=
  Host.rsqrt (maximumf (Host.scatterAdd scatter_S100000_S1300000x1_S1300000_n_0_0_1 (broadcastInDim S100000 ![] bcast_S_S100000 (constant S_ .f32 0x00000000#32)) (broadcastInDim S1300000x1 ![0] bcast_S1300000_S1300000x1_0 idx) (broadcastInDim S1300000 ![] bcast_S_S1300000 (constant S_ .f32 0x3F800000#32))) (broadcastInDim S100000 ![] bcast_S_S100000 (constant S_ .f32 0x3F800000#32)))

/-- The source index of every edge, a negative one moved up by the number of nodes, as an [E, 1] column. -/
def wrapK (src : IVec S1300000 32) : IVec S1300000x1 32 :=
  broadcastInDim S1300000x1 ![0] bcast_S1300000_S1300000x1_0 (select (cmpi .slt src (broadcastInDim S1300000 ![] bcast_S_S1300000 (constantI S_ 32 0#32))) (addi src (broadcastInDim S1300000 ![] bcast_S_S1300000 (constantI S_ 32 100000#32))) src)

/-- The target index of every edge as an [E, 1] column. -/
def tgtK (dst : IVec S1300000 32) : IVec S1300000x1 32 := broadcastInDim S1300000x1 ![0] bcast_S1300000_S1300000x1_0 dst

/-- The features scaled by the out-degree factor. -/
def scaledK (x : FVec Ideal S100000x64 .f32) (src : IVec S1300000 32) : FVec Ideal S100000x64 .f32 :=
  mulf x (broadcastInDim S100000x64 ![0, 1] bcast_S100000x1_S100000x64_0_1 (broadcastInDim S100000x1 ![0] bcast_S100000_S100000x1_0 (nrmK src)))

/-- 64-column rows gathered (through bf16) at the source of every edge and added into the row of its target. -/
def aggK64 (X : FVec Ideal S100000x64 .f32) (src dst : IVec S1300000 32) : FVec Ideal S100000x64 .f32 :=
  Host.scatterAdd scatter_S100000x64_S1300000x1_S1300000x64_1_0_0_1 (broadcastInDim S100000x64 ![] bcast_S_S100000x64 (constant S_ .f32 0x00000000#32)) (tgtK dst)
    (extf .f32 (Host.gather gather_S100000x64_S1300000x1_S1300000x64_1_0_n_n_0_1_164 (truncf .bf16 X bitsLt_bf16_f32) (wrapK src)) bitsLt_bf16_f32)

/-- 16-column rows gathered (through bf16) at the source of every edge and added into the row of its target. -/
def aggK16 (Y : FVec Ideal S100000x16 .f32) (src dst : IVec S1300000 32) : FVec Ideal S100000x16 .f32 :=
  Host.scatterAdd scatter_S100000x16_S1300000x1_S1300000x16_1_0_0_1 (broadcastInDim S100000x16 ![] bcast_S_S100000x16 (constant S_ .f32 0x00000000#32)) (tgtK dst)
    (extf .f32 (Host.gather gather_S100000x16_S1300000x1_S1300000x16_1_0_n_n_0_1_116 (truncf .bf16 Y bitsLt_bf16_f32) (wrapK src)) bitsLt_bf16_f32)

variable (m : (ℓ : Loc nD τ sig) → Buf (Elt Ideal) ℓ) (ρ : Dev nD → PrngReg)

/-! ## What the first region finds -/

theorem V1_v27 (c : Dev nD) : (V1 m ρ c main_v27 : S100000x64.Idx → EReal)
    = aggK64 (scaledK (m ((c : Thread nD τ).loc main_arg0)) (m ((c : Thread nD τ).loc main_arg1)))
        (m ((c : Thread nD τ).loc main_arg1)) (m ((c : Thread nD τ).loc main_arg2)) := by
  show StableHlo.after hostOps0 (W0 m ρ c) (Proc.devRef .tc main_v27) = _
  after_results_simp
  rfl

theorem V1_v28 (c : Dev nD) : (V1 m ρ c main_v28 : S100000x1.Idx → EReal)
    = shapeCast S100000x1 (nrmK (m ((c : Thread nD τ).loc main_arg2))) shapeCasts_S100000_S100000x1 := by
  show StableHlo.after hostOps0 (W0 m ρ c) (Proc.devRef .tc main_v28) = _
  after_results_simp
  rfl

theorem V1_v29 (c : Dev nD) : (V1 m ρ c main_v29 : S100000x1.Idx → EReal)
    = shapeCast S100000x1 (nrmK (m ((c : Thread nD τ).loc main_arg1))) shapeCasts_S100000_S100000x1 := by
  show StableHlo.after hostOps0 (W0 m ρ c) (Proc.devRef .tc main_v29) = _
  after_results_simp
  rfl

theorem V1_v30 (c : Dev nD) : (V1 m ρ c main_v30 : S1x64.Idx → EReal)
    = shapeCast S1x64 (m ((c : Thread nD τ).loc main_arg4)) shapeCasts_S64_S1x64 := by
  show StableHlo.after hostOps0 (W0 m ρ c) (Proc.devRef .tc main_v30) = _
  after_results_simp
  rfl

theorem V1_arg3 (c : Dev nD) : (V1 m ρ c main_arg3 : S64x64.Idx → EReal) = m ((c : Thread nD τ).loc main_arg3) := by
  show StableHlo.after hostOps0 (W0 m ρ c) (Proc.devRef .tc main_arg3) = _
  after_results_simp

theorem V1_arg5 (c : Dev nD) : (V1 m ρ c main_arg5 : S64x16.Idx → EReal) = m ((c : Thread nD τ).loc main_arg5) := by
  show StableHlo.after hostOps0 (W0 m ρ c) (Proc.devRef .tc main_arg5) = _
  after_results_simp

/-! ## What the first region leaves of the buffers the second stretch reads -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp)

theorem W2_v12 (c : Dev nD) : (W2 m ρ c (Proc.devRef .tc main_v12) : S100000.Idx → EReal) = nrmK (m ((c : Thread nD τ).loc main_arg2)) :=
  (W2_of_ne m ρ c main_v12 (by decide)).trans (by
    show StableHlo.after hostOps0 (W0 m ρ c) (Proc.devRef .tc main_v12) = _
    after_results_simp
    rfl)

/-! ## What the second region finds -/

theorem V3_v43 (c : Dev nD) : (V3 m ρ c main_v43 : S100000x16.Idx → EReal)
    = aggK16 (W2 m ρ c (Proc.devRef .tc main_v31)) (m ((c : Thread nD τ).loc main_arg1)) (m ((c : Thread nD τ).loc main_arg2)) := by
  rw [← W2_arg1 m ρ c, ← W2_arg2 m ρ c]
  show StableHlo.after hostOps1 (W2 m ρ c) (Proc.devRef .tc main_v43) = _
  after_results_simp
  rfl

theorem V3_v44 (c : Dev nD) : (V3 m ρ c main_v44 : S100000x1.Idx → EReal)
    = shapeCast S100000x1 (nrmK (m ((c : Thread nD τ).loc main_arg2))) shapeCasts_S100000_S100000x1 := by
  rw [← W2_v12 m ρ c]
  show StableHlo.after hostOps1 (W2 m ρ c) (Proc.devRef .tc main_v44) = _
  after_results_simp
  rfl

theorem V3_v45 (c : Dev nD) : (V3 m ρ c main_v45 : S1x16.Idx → EReal)
    = shapeCast S1x16 (m ((c : Thread nD τ).loc main_arg6)) shapeCasts_S16_S1x16 := by
  rw [← W2_arg6 m ρ c]
  show StableHlo.after hostOps1 (W2 m ρ c) (Proc.devRef .tc main_v45) = _
  after_results_simp
  rfl

end Cert.KernelIdeal.Hand

end
-- ==== Proof.KernelValue.lean ====
/-
  The idealized kernel program's result as a function of its arguments.

  Reading the run backwards: the result buffer holds the second region's write-backs, which are `affine` of the second
  aggregate, the in-degree column and the bias row; the second aggregate gathers and adds the first region's
  write-backs, which are the projected hidden features of the first aggregate, the two degree columns, the weights and
  the first bias row.
-/
import proofs.«162987_j43173011259900_2_alg».proof.Proof.KernelRun
import proofs.«162987_j43173011259900_2_alg».proof.Proof.Region0
import proofs.«162987_j43173011259900_2_alg».proof.Proof.Region1
import proofs.«162987_j43173011259900_2_alg».proof.Proof.HostK

set_option maxRecDepth 16384

noncomputable section

namespace Cert.KernelIdeal.Hand

open Cert.KernelIdeal Cert.KernelIdeal.Gen
open Idealize.ShloMosaic Idealize.ShloMosaic.TcCoe Idealize.SL.Sem
open Cert.Gcn

/-- The in-degree factors as a column. -/
def inCol (dst : IVec S1300000 32) : FVec Ideal S100000x1 .f32 := shapeCast S100000x1 (nrmK dst) shapeCasts_S100000_S100000x1
/-- The out-degree factors as a column. -/
def outCol (src : IVec S1300000 32) : FVec Ideal S100000x1 .f32 := shapeCast S100000x1 (nrmK src) shapeCasts_S100000_S100000x1

/-- The hidden features the first region projects. -/
def hidK (x : FVec Ideal S100000x64 .f32) (src dst : IVec S1300000 32) (W1 : FVec Ideal S64x64 .f32) (b1 : FVec Ideal S64 .f32) :
    S100000x64.Idx → EReal :=
  hid (aggK64 (scaledK x src) src dst) (inCol dst) (outCol src) W1 (shapeCast S1x64 b1 shapeCasts_S64_S1x64)

/-- The program's result. -/
def kOut (x : FVec Ideal S100000x64 .f32) (src dst : IVec S1300000 32) (W1 : FVec Ideal S64x64 .f32) (b1 : FVec Ideal S64 .f32)
    (W2 : FVec Ideal S64x16 .f32) (b2 : FVec Ideal S16 .f32) : S100000x16.Idx → EReal :=
  affine (aggK16 (proj (hidK x src dst W1 b1) W2) src dst) (inCol dst) (shapeCast S1x16 b2 shapeCasts_S16_S1x16)

variable (m : (ℓ : Loc nD τ sig) → Buf (Elt Ideal) ℓ) (ρ : Dev nD → PrngReg)

/-- The first region's result array, of the arguments. -/
theorem W2_v31 (c : Dev nD) : (W2 m ρ c (Proc.devRef .tc main_v31) : S100000x16.Idx → EReal)
    = proj (hidK (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg5)) := by
  refine (W2_arr m ρ c 6).trans ?_
  rw [final0, V1_v27, V1_v28, V1_v29, V1_arg3, V1_v30, V1_arg5]
  rfl

/-- The result buffer's last contents, of the arguments. -/
theorem W4_v46 (c : Dev nD) : (W4 m ρ c (Proc.devRef .tc main_v46) : S100000x16.Idx → EReal)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W4_arr m ρ c 3).trans ?_
  rw [final1, V3_v43, V3_v44, V3_v45, W2_v31]
  rfl

/-- The run with the result named as a function of the arguments. -/
theorem run_value : θ_run defs (onTc (τ := τ) (main (F := Ideal))) ⟨m, fun _ => 0, ρ⟩ (fun r => ∀ c : Dev nD,
      r.2.mem ((c.tc : Thread nD τ).loc main_v46)
        = kOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v46 m ρ c), (h c).2⟩) (run_main m ρ)

end Cert.KernelIdeal.Hand

end
-- ==== Proof.RefRead.lean ====
/-
  The reference program's result as the two layers of the specification.

  The reference computes, from the argument arrays: the inverse square roots of the out- and in-degrees (ones added into
  zeros at the source, respectively target, index of every edge, at least 1); the first aggregation of the features
  scaled by the out-degree factor; the rectified dense layer of that aggregate scaled by the in-degree factor; the second
  aggregation of the hidden features scaled by the out-degree factor; and the second dense layer of that aggregate scaled
  by the in-degree factor. Read with the row-scaling and dense-layer lemmas this is `proj (rowScale (agg (hid …)) …) … + b`.
-/
import proofs.«162987_j43173011259900_2_alg».proof.Proof.Gen.ReferenceIdeal.Run
import proofs.«162987_j43173011259900_2_alg».proof.Proof.LibGcnSpec

noncomputable section

open scoped BigOperators

namespace Cert.ReferenceIdeal.Hand

open Cert.ReferenceIdeal Cert.ReferenceIdeal.Gen Cert.ReferenceIdeal.Value
open Idealize.ShloMosaic Idealize.ShloMosaic.TcCoe Idealize.ShloMosaic.ValueIdx Idealize.SL.Sem
open Cert.Lib.PlainDot Cert.Lib.ReluLayer Cert.Lib.ScaledLayer Cert.Gcn

/-- The inverse square root of the degree counted along one index list, at least 1. -/
def nrm (idx : IVec S1300000 32) : FVec Ideal S100000 .f32 :=
  Host.rsqrt (maximumf (Host.scatterAdd scatter_S100000_S1300000x1_S1300000_n_0_0_1 (broadcastInDim S100000 ![] bcast_S_S100000 (constant S_ .f32 0x00000000#32)) (broadcastInDim S1300000x1 ![0] bcast_S1300000_S1300000x1_0 idx) (broadcastInDim S1300000 ![] bcast_S_S1300000 (constant S_ .f32 0x3F800000#32))) (broadcastInDim S100000 ![] bcast_S_S100000 (constant S_ .f32 0x3F800000#32)))

/-- The source index of every edge, a negative one moved up by the number of nodes, as an [E, 1] column. -/
def wrap (src : IVec S1300000 32) : IVec S1300000x1 32 :=
  broadcastInDim S1300000x1 ![0] bcast_S1300000_S1300000x1_0 (select (cmpi .slt src (broadcastInDim S1300000 ![] bcast_S_S1300000 (constantI S_ 32 0#32))) (addi src (broadcastInDim S1300000 ![] bcast_S_S1300000 (constantI S_ 32 100000#32))) src)

/-- The target index of every edge as an [E, 1] column. -/
def tgt (dst : IVec S1300000 32) : IVec S1300000x1 32 := broadcastInDim S1300000x1 ![0] bcast_S1300000_S1300000x1_0 dst

def zero64 : FVec Ideal S100000x64 .f32 := broadcastInDim S100000x64 ![] bcast_S_S100000x64 (constant S_ .f32 0x00000000#32)

/-- Rows gathered at the source of every edge and added into the row of its target. -/
def agg (X : FVec Ideal S100000x64 .f32) (src dst : IVec S1300000 32) : FVec Ideal S100000x64 .f32 :=
  Host.scatterAdd scatter_S100000x64_S1300000x1_S1300000x64_1_0_0_1 zero64 (tgt dst) (Host.gather gather_S100000x64_S1300000x1_S1300000x64_1_0_n_n_0_1_164 X (wrap src))

/-- A per-node factor spread over the 64 columns. -/
def col (u : FVec Ideal S100000 .f32) : FVec Ideal S100000x64 .f32 :=
  broadcastInDim S100000x64 ![0, 1] bcast_S100000x1_S100000x64_0_1 (broadcastInDim S100000x1 ![0] bcast_S100000_S100000x1_0 u)

/-- The first aggregation. -/
def agg1 (x : FVec Ideal S100000x64 .f32) (src dst : IVec S1300000 32) : FVec Ideal S100000x64 .f32 :=
  agg (mulf x (col (nrm src))) src dst

/-- The hidden features, scaled for the second aggregation. -/
def hidR (x : FVec Ideal S100000x64 .f32) (src dst : IVec S1300000 32) (W1 : FVec Ideal S64x64 .f32) (b1 : FVec Ideal S64 .f32) : FVec Ideal S100000x64 .f32 :=
  mulf (maximumf (addf (Host.dotGeneral dot_S100000x64_S64x64_S100000x64_1_0_0_1_n_n none (mulf (agg1 x src dst) (col (nrm dst))) W1) (broadcastInDim S100000x64 ![0, 1] bcast_S1x64_S100000x64_0_1 (broadcastInDim S1x64 ![1] bcast_S64_S1x64_1 b1))) zero64) (col (nrm src))

/-- The reference's result. -/
def refOut (x : FVec Ideal S100000x64 .f32) (src dst : IVec S1300000 32) (W1 : FVec Ideal S64x64 .f32) (b1 : FVec Ideal S64 .f32)
    (W2 : FVec Ideal S64x16 .f32) (b2 : FVec Ideal S16 .f32) : FVec Ideal S100000x16 .f32 :=
  addf (Host.dotGeneral dot_S100000x64_S64x16_S100000x16_1_0_0_1_n_n none (mulf (agg (hidR x src dst W1 b1) src dst) (col (nrm dst))) W2) (broadcastInDim S100000x16 ![0, 1] bcast_S1x16_S100000x16_0_1 (broadcastInDim S1x16 ![1] bcast_S16_S1x16_1 b2))

set_option maxRecDepth 8192 in
/-- The run's result term is `refOut` of the argument arrays. -/
theorem res_eq (m : (ℓ : Loc nD τ sig) → Buf (Elt Ideal) ℓ) (c : Dev nD) :
    res_main_v53 (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v53 refOut hidR agg1 agg col zero64 tgt wrap nrm
  rfl

theorem cast_col : (⟨1, ![100000]⟩ : Shape).ShapeCasts ⟨2, ![100000, 1]⟩ := by decide
theorem cast_row64 : (⟨1, ![64]⟩ : Shape).ShapeCasts ⟨2, ![1, 64]⟩ := by decide
theorem cast_row16 : (⟨1, ![16]⟩ : Shape).ShapeCasts ⟨2, ![1, 16]⟩ := by decide

theorem dotR1_eq : dot_S100000x64_S64x64_S100000x64_1_0_0_1_n_n = DotDims.plain 100000 64 64 := eq_plain _ rfl rfl rfl rfl rfl rfl
theorem dotR2_eq : dot_S100000x64_S64x16_S100000x16_1_0_0_1_n_n = DotDims.plain 100000 64 16 := eq_plain _ rfl rfl rfl rfl rfl rfl

/-- The hidden features are `hid` of the first aggregate, the two degree columns, the weights and the bias row. -/
theorem hidR_eq (x : FVec Ideal S100000x64 .f32) (src dst : IVec S1300000 32) (W1 : FVec Ideal S64x64 .f32) (b1 : FVec Ideal S64 .f32) :
    hidR x src dst W1 b1 = hid (agg1 x src dst) (shapeCast ⟨2, ![100000, 1]⟩ (nrm dst) cast_col)
      (shapeCast ⟨2, ![100000, 1]⟩ (nrm src) cast_col) W1 (shapeCast ⟨2, ![1, 64]⟩ b1 cast_row64) := by
  unfold hidR col zero64 hid
  rw [dotR1_eq, scaledLayer_host (by decide) _ _ _ _ _ _ cast_col _ cast_row64, rowScale_host _ _ _ _ cast_col]

/-- The reference's result: the second dense layer of the scaled second aggregate. -/
theorem refOut_eq (x : FVec Ideal S100000x64 .f32) (src dst : IVec S1300000 32) (W1 : FVec Ideal S64x64 .f32) (b1 : FVec Ideal S64 .f32)
    (W2 : FVec Ideal S64x16 .f32) (b2 : FVec Ideal S16 .f32) :
    refOut x src dst W1 b1 W2 b2 = fun j => proj (rowScale (agg (hidR x src dst W1 b1) src dst)
        (shapeCast ⟨2, ![100000, 1]⟩ (nrm dst) cast_col)) W2 j + shapeCast ⟨2, ![1, 16]⟩ b2 cast_row16 (ix2 (0 : Fin 1) (j 1)) := by
  funext j
  obtain ⟨n, q, rfl⟩ : ∃ (n : Fin 100000) (q : Fin 16), j = ix2 n q := ⟨j 0, j 1, eq_ix2 j⟩
  unfold refOut col
  rw [addf_apply, dotR2_eq, dotGeneral_plain_apply, rowScale_host _ _ _ _ cast_col, row_spread_eq_cast _ _ cast_row16]
  rw [broadcastInDim_apply ![0, 1] _ _ (ix2 n q) (ix2 (0 : Fin 1) q) (fun a => by
    match a with
    | ⟨0, _⟩ => show (0 : Nat) = if (1 : Nat) = 1 then 0 else _; rw [if_pos rfl]
    | ⟨1, _⟩ => show q.val = if (16 : Nat) = 1 then 0 else q.val; rw [if_neg (by decide)])]
  rfl

end Cert.ReferenceIdeal.Hand

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibSegLanding.lean ====
/-
  Where a row added into a segment lands, exactly, and the segment sum read at an index.

  Rows [R, C] are added into an [N, C] array at scatter indices [R, 1]. The update (e, k') lands on the element (n, k)
  exactly when the signed index of e is n AND k' = k: the row comes from the index, the column is kept. So the set of
  updates landing on (n, k) is { (e, k) : the index of e is n }, and the edges in it do not depend on k: the result at
  (n, k) is the operand there plus the sum, over the edges e whose index is n, of the update's entry (e, k).
  Generic in the three extents.

  Also: ones added into zeros give, at every element, a nonnegative real (a finite sum of ones), whatever the dimension
  numbers and shapes.
-/
import proofs.«162987_j43173011259900_2_alg».proof.Proof.LibSegSum
import proofs.«162987_j43173011259900_2_alg».proof.Proof.LibExtReals

noncomputable section

open scoped BigOperators

namespace Cert.Net

open Idealize.ShloMosaic Idealize.ShloMosaic.ValueIdx Cert.LibSegSum

/-- The update (e, k') lands on (n, k) exactly when the signed index of e is n and k' = k. -/
theorem addRows_lands_iff {N R C : Nat}
    (wf : ScatterDims.WF ⟨2, ![N, C]⟩ ⟨2, ![R, 1]⟩ ⟨2, ![R, C]⟩ [1] [0] [0] 1)
    (idx : IVec ⟨2, ![R, 1]⟩ 32) (e : Fin R) (k' : Fin C) (n : Fin N) (k : Fin C) :
    (addRowsDims N R C wf).resultIdx? (ix2 e k') idx = some (ix2 n k)
      ↔ (idx (at0 e)).toInt = (n.val : Int) ∧ k' = k := by
  have hsi : (addRowsDims N R C wf).siIdx (ix2 e k') ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hs0 : (addRowsDims N R C wf).start (ix2 e k') idx 0 = (idx (at0 e)).toInt := by
    unfold ScatterDims.start
    rw [dif_pos (show (0 : Fin 2) ∈ (addRowsDims N R C wf).scatterDimsToOperandDims from List.mem_singleton.mpr rfl), hsi]
  have hw0 : (addRowsDims N R C wf).window (ix2 e k') 0 = 0 := by
    unfold ScatterDims.window
    rw [dif_neg (show (0 : Fin 2) ∉ (addRowsDims N R C wf).sKept from (by decide : (0 : Fin 2) ∉ (List.finRange 2).filter (· ∉ ([0] : List (Fin 2)))))]
  have hs1 : (addRowsDims N R C wf).start (ix2 e k') idx 1 = 0 := by
    unfold ScatterDims.start
    rw [dif_neg (show (1 : Fin 2) ∉ (addRowsDims N R C wf).scatterDimsToOperandDims from (by decide : (1 : Fin 2) ∉ ([0] : List (Fin 2))))]
  have hw1 : (addRowsDims N R C wf).window (ix2 e k') 1 = k'.val := by
    unfold ScatterDims.window
    rw [dif_pos (show (1 : Fin 2) ∈ (addRowsDims N R C wf).sKept from (by decide : (1 : Fin 2) ∈ (List.finRange 2).filter (· ∉ ([0] : List (Fin 2)))))]
    rfl
  unfold ScatterDims.resultIdx?
  split
  · rename_i hin
    constructor
    · intro h
      have hf := Option.some.inj h
      have h0 := congrArg (fun f => (f 0).val) hf
      have h1 := congrArg (fun f => (f 1).val) hf
      simp only at h0 h1
      have hb := (hin 0).1
      rw [hs0, hw0] at h0 hb
      rw [hs1, hw1] at h1
      simp only [Nat.cast_zero, add_zero] at h0 hb
      refine ⟨?_, Fin.ext ?_⟩
      · show (idx (at0 e)).toInt = (n.val : Int)
        have : ((ix2 n k : (⟨2, ![N, C]⟩ : Shape).Idx) 0).val = n.val := rfl
        omega
      · have : ((ix2 n k : (⟨2, ![N, C]⟩ : Shape).Idx) 1).val = k.val := rfl
        omega
    · rintro ⟨hv, rfl⟩
      refine congrArg some (funext fun a => Fin.ext ?_)
      match a with
      | ⟨0, _⟩ =>
        show ((addRowsDims N R C wf).start (ix2 e k') idx 0 + ((addRowsDims N R C wf).window (ix2 e k') 0 : Nat)).toNat = n.val
        rw [hs0, hw0, hv]; simp
      | ⟨1, _⟩ =>
        show ((addRowsDims N R C wf).start (ix2 e k') idx 1 + ((addRowsDims N R C wf).window (ix2 e k') 1 : Nat)).toNat = k'.val
        rw [hs1, hw1]; simp
  · rename_i hin
    constructor
    · intro h; exact absurd h (by simp)
    · rintro ⟨hv, rfl⟩
      exfalso; apply hin
      intro a
      match a with
      | ⟨0, _⟩ =>
        show 0 ≤ (addRowsDims N R C wf).start (ix2 e k') idx 0 + ((addRowsDims N R C wf).window (ix2 e k') 0 : Nat)
          ∧ (addRowsDims N R C wf).start (ix2 e k') idx 0 + ((addRowsDims N R C wf).window (ix2 e k') 0 : Nat) < (N : Int)
        rw [hs0, hw0, hv]
        have := n.isLt
        constructor <;> simp <;> omega
      | ⟨1, _⟩ =>
        show 0 ≤ (addRowsDims N R C wf).start (ix2 e k') idx 1 + ((addRowsDims N R C wf).window (ix2 e k') 1 : Nat)
          ∧ (addRowsDims N R C wf).start (ix2 e k') idx 1 + ((addRowsDims N R C wf).window (ix2 e k') 1 : Nat) < (C : Int)
        rw [hs1, hw1]
        have := k'.isLt
        constructor <;> simp <;> omega

/-- Rows added into segments, read at (n, k): the operand there plus the sum over the edges e whose signed index is n
    of the update's entry (e, k). Which edges count does not depend on the column k. -/
theorem scatterAdd_rows_apply {N R C : Nat}
    (wf : ScatterDims.WF ⟨2, ![N, C]⟩ ⟨2, ![R, 1]⟩ ⟨2, ![R, C]⟩ [1] [0] [0] 1)
    (Z : FVec Ideal ⟨2, ![N, C]⟩ .f32) (idx : IVec ⟨2, ![R, 1]⟩ 32) (upd : FVec Ideal ⟨2, ![R, C]⟩ .f32)
    (n : Fin N) (k : Fin C) :
    Host.scatterAdd (addRowsDims N R C wf) Z idx upd (ix2 n k)
      = Z (ix2 n k) + ∑ e : Fin R, if (idx (at0 e)).toInt = (n.val : Int) then upd (ix2 e k) else 0 := by
  simp only [Host.scatterAdd, Ideal.hostScatterAdd_def, Ideal.hostScatterAdd]
  congr 1
  rw [Finset.sum_filter, sum_idx2]
  refine Finset.sum_congr rfl fun e _ => ?_
  simp only [addRows_lands_iff]
  by_cases h : (idx (at0 e)).toInt = (n.val : Int)
  · simp only [h, true_and, if_true]
    exact (Finset.sum_ite_eq' Finset.univ k fun k' => upd (ix2 e k')).trans (if_pos (Finset.mem_univ k))
  · simp only [h, false_and, if_false]
    exact Finset.sum_const_zero

/-- Ones added into zeros: every entry of the result is a nonnegative real, whatever the dimension numbers. -/
theorem scatterAdd_ones_real {s si u : Shape} {w : Nat} (d : ScatterDims s si u) (Z : FVec Ideal s .f32) (idx : IVec si w)
    (upd : FVec Ideal u .f32) (hZ : ∀ i, Z i = 0) (hU : ∀ j, upd j = 1) (i : s.Idx) :
    ∃ r : ℝ, 0 ≤ r ∧ Host.scatterAdd d Z idx upd i = (r : EReal) := by
  simp only [Host.scatterAdd, Ideal.hostScatterAdd_def, Ideal.hostScatterAdd]
  rw [hZ, zero_add, Finset.sum_congr rfl fun j _ => hU j]
  exact sum_ones_real _

end Cert.Net

end
-- ==== Proof.LibGcnLaw.lean ====
/-
  The second graph-convolution layer with its weight matrix applied before the aggregation.

  X is the [N, H] array of hidden features, W an [H, C] matrix, v an [N, 1] column of per-node factors, b a [1, C] bias
  row; rows are gathered at the source index of each edge and added into the row of the edge's target. For real
  entries, at (n, c):
      (Σ_{e → n} (X W)(src e, c)) · v n + b c   =   Σ_k ((Σ_{e → n} X (src e, k)) · v n) · W (k, c) + b c,
  the left side gathering the C columns of the product X W, the right side the H columns of X. Which edges land on n
  does not depend on the column, and a gathered row of the product is the product of the gathered row.
  Also: rows with real entries gathered and added into zeros have real entries.

  Generic in the extents; nothing here depends on a program (imports LibGcnSpec, LibSegLanding and what they import).
-/
import proofs.«162987_j43173011259900_2_alg».proof.Proof.LibGcnSpec
import proofs.«162987_j43173011259900_2_alg».proof.Proof.LibSegLanding

noncomputable section

open scoped BigOperators

namespace Cert.Gcn

open Idealize.ShloMosaic Idealize.ShloMosaic.ValueIdx Cert.Lib.ScaledLayer Cert.LibSegSum Cert.Net

theorem second_layer {N R H C : Nat} (hN : 0 < N)
    (wsC : ScatterDims.WF ⟨2, ![N, C]⟩ ⟨2, ![R, 1]⟩ ⟨2, ![R, C]⟩ [1] [0] [0] 1)
    (wgC : GatherDims.WF ⟨2, ![N, C]⟩ ⟨2, ![R, 1]⟩ ⟨2, ![R, C]⟩ [1] [0] [] [0] [] 1 ![1, C])
    (wsH : ScatterDims.WF ⟨2, ![N, H]⟩ ⟨2, ![R, 1]⟩ ⟨2, ![R, H]⟩ [1] [0] [0] 1)
    (wgH : GatherDims.WF ⟨2, ![N, H]⟩ ⟨2, ![R, 1]⟩ ⟨2, ![R, H]⟩ [1] [0] [] [0] [] 1 ![1, H])
    (ZC : FVec Ideal ⟨2, ![N, C]⟩ .f32) (ZH : FVec Ideal ⟨2, ![N, H]⟩ .f32) (hZC : ∀ i, ZC i = 0) (hZH : ∀ i, ZH i = 0)
    (X : FVec Ideal ⟨2, ![N, H]⟩ .f32) (W : FVec Ideal ⟨2, ![H, C]⟩ .f32) (v : FVec Ideal ⟨2, ![N, 1]⟩ .f32)
    (b : FVec Ideal ⟨2, ![1, C]⟩ .f32) (sidx didx : IVec ⟨2, ![R, 1]⟩ 32)
    (hX : ∀ i, ∃ r : ℝ, X i = (r : EReal)) (hW : ∀ i, ∃ r : ℝ, W i = (r : EReal)) (hv : ∀ i, ∃ r : ℝ, v i = (r : EReal)) :
    affine (Host.scatterAdd (addRowsDims N R C wsC) ZC didx (Host.gather (rowsDims N R C wgC) (proj X W) sidx)) v b
      = fun j => proj (rowScale (Host.scatterAdd (addRowsDims N R H wsH) ZH didx (Host.gather (rowsDims N R H wgH) X sidx)) v) W j
          + b (ix2 (0 : Fin 1) (j 1)) := by
  funext j
  obtain ⟨n, c, rfl⟩ : ∃ (n : Fin N) (c : Fin C), j = ix2 n c := ⟨j 0, j 1, eq_ix2 j⟩
  show _ = proj _ W (ix2 n c) + b (ix2 (0 : Fin 1) c)
  rw [affine_apply, scatterAdd_rows_apply, hZC, proj_apply]
  simp only [rowScale_apply, scatterAdd_rows_apply, hZH, gather_rows_apply hN, proj_apply]
  congr 1
  exact push_law (fun e : Fin R => (didx (at0 e)).toInt = (n.val : Int))
    (fun e k => X (ix2 (clampIx hN (sidx (at0 e))) k)) (fun k => W (ix2 k c)) (v (ix2 n (0 : Fin 1)))
    (fun e k => hX _) (fun k => hW _) (hv _)

/-- The entries of rows gathered and added into zeros are real when the rows' entries are. -/
theorem agg_real {N R C : Nat} (hN : 0 < N)
    (ws : ScatterDims.WF ⟨2, ![N, C]⟩ ⟨2, ![R, 1]⟩ ⟨2, ![R, C]⟩ [1] [0] [0] 1)
    (wg : GatherDims.WF ⟨2, ![N, C]⟩ ⟨2, ![R, 1]⟩ ⟨2, ![R, C]⟩ [1] [0] [] [0] [] 1 ![1, C])
    (Z : FVec Ideal ⟨2, ![N, C]⟩ .f32) (hZ : ∀ i, Z i = 0) (X : FVec Ideal ⟨2, ![N, C]⟩ .f32)
    (sidx didx : IVec ⟨2, ![R, 1]⟩ 32) (hX : ∀ i, ∃ r : ℝ, X i = (r : EReal)) (j : (⟨2, ![N, C]⟩ : Shape).Idx) :
    ∃ r : ℝ, Host.scatterAdd (addRowsDims N R C ws) Z didx (Host.gather (rowsDims N R C wg) X sidx) j = (r : EReal) := by
  obtain ⟨n, c, rfl⟩ : ∃ (n : Fin N) (c : Fin C), j = ix2 n c := ⟨j 0, j 1, eq_ix2 j⟩
  rw [scatterAdd_rows_apply, hZ]
  refine real_add real_zero (real_sum _ _ fun e => real_ite _ ?_)
  rw [gather_rows_apply hN]
  exact hX _

end Cert.Gcn

end
-- ==== Proof.Bridge.lean ====
/-
  The kernel program's result is the reference's, for real arguments.

  Both programs compute the same degree factors, the same first aggregate (the kernel's gather goes through bf16, the
  identity on the extended reals) and the same hidden features. They differ in the second layer: the kernel multiplies
  the hidden features by the second weight matrix before gathering and adding, the reference after. For real entries
  the two agree (`second_layer`); the entries are real because the float arguments are, the degrees are finite sums of
  ones, and the inverse square root of a real number that is at least 1 is real.
-/
import proofs.«162987_j43173011259900_2_alg».proof.Proof.KernelValue
import proofs.«162987_j43173011259900_2_alg».proof.Proof.RefRead
import proofs.«162987_j43173011259900_2_alg».proof.Proof.LibGcnLaw

set_option maxRecDepth 16384

noncomputable section

open scoped BigOperators

namespace Cert.Bridge

open Idealize.ShloMosaic Idealize.ShloMosaic.ValueIdx
open Cert.Gcn Cert.Net Cert.LibSegSum Cert.Lib.ScaledLayer
open Cert.KernelIdeal.Hand Cert.ReferenceIdeal.Hand

abbrev SN : Shape := ⟨1, ![100000]⟩
abbrev SE : Shape := ⟨1, ![1300000]⟩
abbrev SE1 : Shape := ⟨2, ![1300000, 1]⟩
abbrev SN64 : Shape := ⟨2, ![100000, 64]⟩
abbrev SN16 : Shape := ⟨2, ![100000, 16]⟩

/-! ## The shared chain is one chain -/

theorem nrm_eq (idx : IVec SE 32) : nrmK idx = nrm idx := rfl
theorem wrap_eq (src : IVec SE 32) : wrapK src = wrap src := rfl
theorem tgt_eq (dst : IVec SE 32) : tgtK dst = tgt dst := rfl

theorem ws64 : ScatterDims.WF ⟨2, ![100000, 64]⟩ ⟨2, ![1300000, 1]⟩ ⟨2, ![1300000, 64]⟩ [1] [0] [0] 1 :=
  Cert.ReferenceIdeal.Gen.scatter_S100000x64_S1300000x1_S1300000x64_1_0_0_1_wf
theorem wg64 : GatherDims.WF ⟨2, ![100000, 64]⟩ ⟨2, ![1300000, 1]⟩ ⟨2, ![1300000, 64]⟩ [1] [0] [] [0] [] 1 ![1, 64] :=
  Cert.ReferenceIdeal.Gen.gather_S100000x64_S1300000x1_S1300000x64_1_0_n_n_0_1_164_wf
theorem ws16 : ScatterDims.WF ⟨2, ![100000, 16]⟩ ⟨2, ![1300000, 1]⟩ ⟨2, ![1300000, 16]⟩ [1] [0] [0] 1 :=
  Cert.KernelIdeal.Gen.scatter_S100000x16_S1300000x1_S1300000x16_1_0_0_1_wf
theorem wg16 : GatherDims.WF ⟨2, ![100000, 16]⟩ ⟨2, ![1300000, 1]⟩ ⟨2, ![1300000, 16]⟩ [1] [0] [] [0] [] 1 ![1, 16] :=
  Cert.KernelIdeal.Gen.gather_S100000x16_S1300000x1_S1300000x16_1_0_n_n_0_1_116_wf

/-- The reference's aggregation in the generic dimension numbers. -/
theorem agg_eq (X : FVec Ideal SN64 .f32) (src dst : IVec SE 32) :
    agg X src dst = Host.scatterAdd (addRowsDims 100000 1300000 64 ws64) zero64 (tgt dst)
      (Host.gather (rowsDims 100000 1300000 64 wg64) X (wrap src)) := rfl

/-- The kernel's 64-column aggregation is the reference's: rounding to bf16 and back is the identity. -/
theorem aggK64_eq (X : FVec Ideal SN64 .f32) (src dst : IVec SE 32) : aggK64 X src dst = agg X src dst := rfl

def zero16 : FVec Ideal SN16 .f32 :=
  broadcastInDim Cert.KernelIdeal.S100000x16 ![] Cert.KernelIdeal.Gen.bcast_S_S100000x16 (constant Cert.KernelIdeal.S_ .f32 0x00000000#32)

/-- The kernel's 16-column aggregation in the generic dimension numbers. -/
theorem aggK16_eq (Y : FVec Ideal SN16 .f32) (src dst : IVec SE 32) :
    aggK16 Y src dst = Host.scatterAdd (addRowsDims 100000 1300000 16 ws16) zero16 (tgt dst)
      (Host.gather (rowsDims 100000 1300000 16 wg16) Y (wrap src)) := rfl

theorem agg1_eq (x : FVec Ideal SN64 .f32) (src dst : IVec SE 32) : aggK64 (scaledK x src) src dst = agg1 x src dst := rfl

/-! ## Zeros, ones, and the degree factors are real -/

theorem zero_at {S : Shape} (bc : (⟨0, ![]⟩ : Shape).BroadcastsInDim S ![]) (i : S.Idx) :
    broadcastInDim S ![] bc (constant (F := Ideal) ⟨0, ![]⟩ .f32 0x00000000#32) i = 0 := by
  rw [broadcastInDim_apply ![] bc _ i ix0 fun d => d.elim0]
  rw [constant_apply]
  exact Ideal.ofBits_zero_f32

theorem one_at {S : Shape} (bc : (⟨0, ![]⟩ : Shape).BroadcastsInDim S ![]) (i : S.Idx) :
    broadcastInDim S ![] bc (constant (F := Ideal) ⟨0, ![]⟩ .f32 0x3F800000#32) i = 1 := by
  rw [broadcastInDim_apply ![] bc _ i ix0 fun d => d.elim0]
  rw [constant_apply]
  exact one_word

theorem rsqrt_real {r : ℝ} (hr : 0 < r) : ∃ s : ℝ, Ideal.rsqrt (r : EReal) = (s : EReal) := by
  rw [Ideal.rsqrt_coe, if_neg (not_lt.mpr hr.le), if_neg hr.ne']
  exact ⟨_, rfl⟩

/-- The inverse square root of max(a, 1) is real when a is a nonnegative real. -/
theorem rsqrt_guard_real (a b : EReal) (ha : ∃ r : ℝ, 0 ≤ r ∧ a = (r : EReal)) (hb : b = 1) :
    ∃ s : ℝ, Ideal.rsqrt (max a b) = (s : EReal) := by
  obtain ⟨d, hd0, rfl⟩ := ha
  rw [hb, ← EReal.coe_one, ← coe_max]
  exact rsqrt_real (lt_of_lt_of_le one_pos (le_max_right _ _))

/-- The zero vector the degrees are counted into, the ones counted, and the ones the degrees are guarded by. -/
def degZ : FVec Ideal SN .f32 := broadcastInDim Cert.ReferenceIdeal.S100000 ![] Cert.ReferenceIdeal.Gen.bcast_S_S100000 (constant (F := Ideal) Cert.ReferenceIdeal.S_ .f32 0x00000000#32)
def onesE : FVec Ideal SE .f32 := broadcastInDim Cert.ReferenceIdeal.S1300000 ![] Cert.ReferenceIdeal.Gen.bcast_S_S1300000 (constant (F := Ideal) Cert.ReferenceIdeal.S_ .f32 0x3F800000#32)
def onesN : FVec Ideal SN .f32 := broadcastInDim Cert.ReferenceIdeal.S100000 ![] Cert.ReferenceIdeal.Gen.bcast_S_S100000 (constant (F := Ideal) Cert.ReferenceIdeal.S_ .f32 0x3F800000#32)

/-- The degree of every node along one index list: ones added into zeros. -/
def deg (idx : IVec SE 32) : FVec Ideal SN .f32 :=
  Host.scatterAdd Cert.ReferenceIdeal.scatter_S100000_S1300000x1_S1300000_n_0_0_1 degZ (tgt idx) onesE

theorem nrm_fn (idx : IVec SE 32) : nrm idx = Host.rsqrt (maximumf (deg idx) onesN) := rfl

theorem host_rsqrt_apply {S : Shape} (v : FVec Ideal S .f32) (i : S.Idx) : Host.rsqrt v i = Ideal.rsqrt (v i) := rfl

/-- A degree is a nonnegative real: a finite sum of ones. -/
theorem deg_real (idx : IVec SE 32) (i : SN.Idx) : ∃ r : ℝ, 0 ≤ r ∧ deg idx i = (r : EReal) :=
  scatterAdd_ones_real Cert.ReferenceIdeal.scatter_S100000_S1300000x1_S1300000_n_0_0_1 degZ (tgt idx) onesE
    (fun i => zero_at Cert.ReferenceIdeal.Gen.bcast_S_S100000 i) (fun j => one_at Cert.ReferenceIdeal.Gen.bcast_S_S1300000 j) i

theorem onesN_apply (i : SN.Idx) : onesN i = 1 := one_at Cert.ReferenceIdeal.Gen.bcast_S_S100000 i

/-- A degree factor is a real number: the degree is a finite sum of ones, at least 1 after the guard. -/
theorem nrm_real (idx : IVec SE 32) (i : SN.Idx) : ∃ r : ℝ, nrm idx i = (r : EReal) := by
  rw [nrm_fn, host_rsqrt_apply, maximumf_apply]
  exact rsqrt_guard_real _ _ (deg_real idx i) (onesN_apply i)

theorem col_real {S : Shape} (v : FVec Ideal SN .f32) (h : SN.ShapeCasts S) (hv : ∀ i, ∃ r : ℝ, v i = (r : EReal)) (i : S.Idx) :
    ∃ r : ℝ, shapeCast S v h i = (r : EReal) := hv _

theorem row_real {S S' : Shape} (v : FVec Ideal S .f32) (h : S.ShapeCasts S') (hv : ∀ i, ∃ r : ℝ, v i = (r : EReal)) (i : S'.Idx) :
    ∃ r : ℝ, shapeCast S' v h i = (r : EReal) := hv _

/-- The first aggregate is real when the features are. -/
theorem agg1_real (x : FVec Ideal SN64 .f32) (src dst : IVec SE 32) (hx : ∀ i, ∃ r : ℝ, x i = (r : EReal)) (i : SN64.Idx) :
    ∃ r : ℝ, agg1 x src dst i = (r : EReal) := by
  unfold agg1
  rw [agg_eq]
  refine agg_real (by decide) ws64 wg64 zero64 (fun i => zero_at _ i) _ _ _ (fun j => ?_) i
  obtain ⟨n, k, rfl⟩ : ∃ (n : Fin 100000) (k : Fin 64), j = ix2 n k := ⟨j 0, j 1, eq_ix2 j⟩
  unfold col
  rw [mulf_apply, bcast_col_apply]
  exact real_mul (hx _) (nrm_real _ _)

/-! ## The two results agree -/

theorem kOut_eq_refOut (x : FVec Ideal SN64 .f32) (src dst : IVec SE 32) (W1 : FVec Ideal ⟨2, ![64, 64]⟩ .f32)
    (b1 : FVec Ideal ⟨1, ![64]⟩ .f32) (W2 : FVec Ideal ⟨2, ![64, 16]⟩ .f32) (b2 : FVec Ideal ⟨1, ![16]⟩ .f32)
    (hx : ∀ i, ∃ r : ℝ, x i = (r : EReal)) (hW1 : ∀ i, ∃ r : ℝ, W1 i = (r : EReal)) (hb1 : ∀ i, ∃ r : ℝ, b1 i = (r : EReal))
    (hW2 : ∀ i, ∃ r : ℝ, W2 i = (r : EReal)) :
    kOut x src dst W1 b1 W2 b2 = refOut x src dst W1 b1 W2 b2 := by
  rw [refOut_eq, hidR_eq, agg_eq]
  unfold kOut hidK inCol outCol
  rw [agg1_eq, aggK16_eq, nrm_eq, nrm_eq]
  exact second_layer (by decide) ws16 wg16 ws64 wg64 zero16 zero64 (fun i => zero_at _ i) (fun i => zero_at _ i) _ W2 _ _
    (wrap src) (tgt dst)
    (fun i => hid_real _ _ _ _ _ (agg1_real x src dst hx) (col_real _ _ (nrm_real dst)) (col_real _ _ (nrm_real src)) hW1
      (row_real _ _ hb1) i)
    hW2 (col_real _ _ (nrm_real dst))

end Cert.Bridge

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition read back: every float argument holds real numbers.

  The precondition is the conjunction, over the five float arguments, of all(|x| < +inf). If it is 1, each conjunct is 1,
  and then every entry of each float argument is a real number (neither infinity passes the test).
-/
import proofs.«162987_j43173011259900_2_alg».proof.Proof.Gen.Pre_finite_inputs
import proofs.«162987_j43173011259900_2_alg».proof.Proof.LibFinite
import Idealize.ShloMosaic.Lib.Affine

noncomputable section

namespace Cert.Pre_finite_inputs.Hand

open Cert.Pre_finite_inputs Cert.Pre_finite_inputs.Gen
open Idealize.ShloMosaic Idealize.ShloMosaic.ValueIdx Cert.LibFinite

theorem real_of_pre (x : FVec Ideal S100000x64 .f32) (src dst : IVec S1300000 32) (W1 : FVec Ideal S64x64 .f32)
    (b1 : FVec Ideal S64 .f32) (W2 : FVec Ideal S64x16 .f32) (b2 : FVec Ideal S16 .f32)
    (h : fn (F := Ideal) x src dst W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal)) := by
  have h0 := congrFun h ix0
  dsimp only [fn, fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all x _ _ _ ix0 h1, real_of_all W1 _ _ _ ix0 h2, real_of_all b1 _ _ _ ix0 h3,
    real_of_all W2 _ _ _ ix0 h4, real_of_all b2 _ _ _ ix0 h5⟩

end Cert.Pre_finite_inputs.Hand

end
-- ==== Proof.lean ====
/-
  Two graph-convolution layers (degree-normalised aggregation, dense layer, rectifier; then aggregation and a second dense
  layer) computed by a kernel program against a plain reference, equal on the extended reals for finite float inputs.

  Both programs compute d_out^(-1/2) and d_in^(-1/2) from the edge lists, aggregate the features scaled by the first
  over the edges, and apply the first dense layer with a rectifier to the aggregate scaled by the second. The kernel then
  multiplies the hidden features (scaled by d_out^(-1/2)) by the second weight matrix BEFORE the second aggregation and
  adds the bias after scaling by d_in^(-1/2); the reference aggregates first and multiplies after. Gathering a row and
  summing rows commute with multiplying on the right by a matrix, and a per-node factor can be taken into the sum over the
  matrix's rows: distributivity and an exchange of two finite sums. On the extended reals distributivity needs real
  entries, which is where the precondition is used: the float arguments are real, the degrees are finite sums of ones,
  and the inverse square root of a real number that is at least 1 is real.

  The three frames: the two kernel programs' are the generated frame certificates; the reference's is its generated run
  with the result dropped. The idealisation rewrote nothing, so it preserves the program trivially.
-/
import proofs.«162987_j43173011259900_2_alg».proof.Defs
import proofs.«162987_j43173011259900_2_alg».proof.Proof.Gen.Kernel
import proofs.«162987_j43173011259900_2_alg».proof.Proof.Gen.Kernel.Frame
import proofs.«162987_j43173011259900_2_alg».proof.Proof.Gen.KernelIdeal
import proofs.«162987_j43173011259900_2_alg».proof.Proof.Gen.KernelIdeal.Frame
import proofs.«162987_j43173011259900_2_alg».proof.Proof.Gen.ReferenceIdeal
import proofs.«162987_j43173011259900_2_alg».proof.Proof.Gen.Pre_finite_inputs
import proofs.«162987_j43173011259900_2_alg».proof.Proof.Gen.ReferenceIdeal.Run
import proofs.«162987_j43173011259900_2_alg».proof.Proof.KernelValue
import proofs.«162987_j43173011259900_2_alg».proof.Proof.Bridge
import proofs.«162987_j43173011259900_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel program ends with its result at `kOut` of the arguments and the
    reference with its result at `refOut` of them; for real float arguments the two are one array. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hW1, hb1, hW2, hb2⟩ := Cert.Pre_finite_inputs.Hand.real_of_pre _ _ _ _ _ _ _ (hpre c)
  rw [Cert.ReferenceIdeal.Hand.res_eq, (hagree c).1, (hagree c).2.1, (hagree c).2.2.1, (hagree c).2.2.2.1,
    (hagree c).2.2.2.2.1, (hagree c).2.2.2.2.2.1, (hagree c).2.2.2.2.2.2]
  exact (Cert.Bridge.kOut_eq_refOut _ _ _ _ _ _ _ hx hW1 hb1 hW2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
